-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_10000" .f32 0x38D1B717#32 ((1 / 10000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1 : Shape := ⟨1, ![1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S128 .f32) (main_arg5 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S10000x128 .f32) (main_arg1 : FVec F S10000x128 .f32) (main_arg2 : FVec F S10000x10000 .f32) (main_arg3 : FVec F S128x128 .f32) (main_arg4 : FVec F S128 .f32) (main_arg5 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1 : Shape := ⟨1, ![1]⟩
abbrev S1x128 : Shape := ⟨2, ![1, 128]⟩
abbrev S1x1 : Shape := ⟨2, ![1, 1]⟩
abbrev S400x10000 : Shape := ⟨2, ![400, 10000]⟩
abbrev S400x128 : Shape := ⟨2, ![400, 128]⟩
abbrev S10000x256 : Shape := ⟨2, ![10000, 256]⟩
abbrev S400x256 : Shape := ⟨2, ![400, 256]⟩

abbrev nBuf : Space → Nat
  | .hbm => 12
  | .vmem => 13
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S10000x10000, .f32⟩
  | .hbm, ⟨3, _⟩ => ⟨S128x128, .f32⟩
  | .hbm, ⟨4, _⟩ => ⟨S128, .f32⟩
  | .hbm, ⟨5, _⟩ => ⟨S1, .f32⟩
  | .hbm, ⟨6, _⟩ => ⟨S1x128, .f32⟩
  | .hbm, ⟨7, _⟩ => ⟨S1x1, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S1x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S400x10000, .f32⟩
  | .local _ .vmem, ⟨4, _⟩ => ⟨S400x10000, .f32⟩
  | .local _ .vmem, ⟨5, _⟩ => ⟨S1x128, .f32⟩
  | .local _ .vmem, ⟨6, _⟩ => ⟨S1x128, .f32⟩
  | .local _ .vmem, ⟨7, _⟩ => ⟨S400x128, .f32⟩
  | .local _ .vmem, ⟨8, _⟩ => ⟨S400x128, .f32⟩
  | .local _ .vmem, ⟨9, _⟩ => ⟨S400x128, .f32⟩
  | .local _ .vmem, ⟨10, _⟩ => ⟨S400x128, .f32⟩
  | .local _ .vmem, ⟨11, _⟩ => ⟨S1x128, .f32⟩
  | .local _ .vmem, ⟨12, _⟩ => ⟨S10000x256, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S400x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

class Facts₀ : Prop where
  shapeCasts_S128_S1x128 : S128.ShapeCasts S1x128
  shapeCasts_S1_S1x1 : S1.ShapeCasts S1x1
  bcast_S1x1_S1x128_0_1 : S1x1.BroadcastsInDim S1x128 (![0, 1] : Fin 2 → Fin S1x128.rank)
  inb_S128x128_S128x128_0_0 : ∀ a, (![0, 0] : Fin 2 → Nat) a + S128x128.size a ≤ S128x128.size a
  h_S128x128 : 0 < S128x128.numel
  inb_S10000x128_S10000x128_0_0 : ∀ a, (![0, 0] : Fin 2 → Nat) a + S10000x128.size a ≤ S10000x128.size a
  h_S10000x128 : 0 < S10000x128.numel
  inb_S10000x256_S10000x128_0_0 : ∀ a, (![0, 0] : Fin 2 → Nat) a + S10000x128.size a ≤ S10000x256.size a
  shapeCasts_S10000x128_S10000x128 : S10000x128.ShapeCasts S10000x128
  inb_S10000x256_S10000x128_0_128 : ∀ a, (![0, 128] : Fin 2 → Nat) a + S10000x128.size a ≤ S10000x256.size a
  inb_S1x128_S1x128_0_0 : ∀ a, (![0, 0] : Fin 2 → Nat) a + S1x128.size a ≤ S1x128.size a
  h_S1x128 : 0 < S1x128.numel
  inb_S400x10000_S400x10000_0_0 : ∀ a, (![0, 0] : Fin 2 → Nat) a + S400x10000.size a ≤ S400x10000.size a
  h_S400x10000 : 0 < S400x10000.numel
  inb_S10000x256_S10000x256_0_0 : ∀ a, (![0, 0] : Fin 2 → Nat) a + S10000x256.size a ≤ S10000x256.size a
  h_S10000x256 : 0 < S10000x256.numel
  shapeCasts_S1x128_S1x128 : S1x128.ShapeCasts S1x128
  slices_S400x256_o0_0_S400x128 : S400x256.Slices ![0, 0] S400x128
  broadcasts_S1x128_S400x128 : S1x128.Broadcasts S400x128
  slices_S400x256_o0_128_S400x128 : S400x256.Slices ![0, 128] S400x128
  inb_S400x128_S400x128_0_0 : ∀ a, (![0, 0] : Fin 2 → Nat) a + S400x128.size a ≤ S400x128.size a
  h_S400x128 : 0 < S400x128.numel
  reduces_S400x128_S128 : S400x128.Reduces [0] S128
  dot_S10000x128_S128x128_S10000x128_1_0_0_1_n_n_wf : DotDims.WF S10000x128 S128x128 S10000x128 [1] [0] [0] [1] [] []
  dot_S400x10000_S10000x256_S400x256_1_0_0_1_n_n_wf : DotDims.WF S400x10000 S10000x256 S400x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x10000.size a ≤ S10000x10000.size a
  hwx0_3 : ∀ i : grid0.Coords, EltTy.bits .f32 = 32 ∨ (Rect.block (s := S10000x10000) S400x10000.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .f32 = 32 ∨ (Rect.block (s := S10000x128) S400x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x128.size a ≤ S10000x128.size a
  hwx0_7 : ∀ i : grid0.Coords, EltTy.bits .f32 = 32 ∨ (Rect.block (s := S10000x128) S400x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S400x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3_0) S400x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3_1) S400x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1 : Shape := ⟨1, ![1]⟩
abbrev S1x128 : Shape := ⟨2, ![1, 128]⟩
abbrev S_ : Shape := ⟨0, ![]⟩
abbrev S1x1 : Shape := ⟨2, ![1, 1]⟩

abbrev nBuf : Space → Nat
  | .hbm => 36
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S10000x10000, .f32⟩
  | .hbm, ⟨3, _⟩ => ⟨S128x128, .f32⟩
  | .hbm, ⟨4, _⟩ => ⟨S128, .f32⟩
  | .hbm, ⟨5, _⟩ => ⟨S1, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .i1⟩
  | .hbm, ⟨14, _⟩ => ⟨S1x1, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S_, .f32⟩
  | .hbm, ⟨19, _⟩ => ⟨S128, .f32⟩
  | .hbm, ⟨20, _⟩ => ⟨S_, .f32⟩
  | .hbm, ⟨21, _⟩ => ⟨S128, .f32⟩
  | .hbm, ⟨22, _⟩ => ⟨S128, .f32⟩
  | .hbm, ⟨23, _⟩ => ⟨S10000x128, .f32⟩
  | .hbm, ⟨24, _⟩ => ⟨S10000x128, .f32⟩
  | .hbm, ⟨25, _⟩ => ⟨S1x128, .f32⟩
  | .hbm, ⟨26, _⟩ => ⟨S10000x128, .f32⟩
  | .hbm, ⟨27, _⟩ => ⟨S10000x128, .f32⟩
  | .hbm, ⟨28, _⟩ => ⟨S_, .f32⟩
  | .hbm, ⟨29, _⟩ => ⟨S10000x128, .f32⟩
  | .hbm, ⟨30, _⟩ => ⟨S10000x128, .i1⟩
  | .hbm, ⟨31, _⟩ => ⟨S1x1, .f32⟩
  | .hbm, ⟨32, _⟩ => ⟨S10000x128, .f32⟩
  | .hbm, ⟨33, _⟩ => ⟨S10000x128, .f32⟩
  | .hbm, ⟨34, _⟩ => ⟨S10000x128, .f32⟩
  | .hbm, ⟨35, _⟩ => ⟨S1x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S1_S1x1_1 : S1.BroadcastsInDim S1x1 (![1] : Fin 1 → Fin S1x1.rank)
  bcast_S1x1_S10000x128_0_1 : S1x1.BroadcastsInDim S10000x128 (![0, 1] : Fin 2 → Fin S10000x128.rank)
  reducesTo_S10000x128_S128_d0 : S10000x128.ReducesTo [0] S128
  h_S_ : 0 < S_.numel
  bcast_S_S128 : S_.BroadcastsInDim S128 (![] : Fin 0 → Fin S128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.LibCoveredLoad.lean ====
/-
  A load of a whole buffer after a list of stores.

  When a body stores into a buffer piece by piece and then loads the buffer whole, what the load reads is the contents
  the stores leave: at each index the payload of the latest store whose rectangle holds it. The whole-shape
  rectangle at zero offsets reads every index in place, so nothing has to be said about which stores cover what.
-/
import Idealize.ShloMosaic.Lib.Pipeline.Value

noncomputable section

namespace Idealize.ShloMosaic.View

variable {Val : EltTy → Type} {S : Shape} {e : EltTy}

/-- A load through the whole-shape rectangle at zero offsets (however the zeros are spelt), after the stores L
    into junk, reads the contents the stores leave (the canon of L), for any list of stores, covering or not. -/
theorem readCov_whole_eq_canon [∀ e, Nonempty (Val e)] {sig : RefSig} {κ : Kind} {sp : Space}
    (v : View sig κ sp S e) {off : Fin S.rank → Nat} (h : off = fun _ => 0)
    (inb : ∀ a, off a + S.size a ≤ S.size a) (L : List (Piece Val S e)) :
    v.readCov L (Rect.unit off S.size inb).toLoadRect = View.canon L := by
  rw [readCov_eq_canon']
  exact ld_unit_zero h inb (View.canon L)

end Idealize.ShloMosaic.View

end
-- ==== Proof.Pieces.lean ====
/-
  What one grid point leaves behind, case by case.

  The kernel's body runs in three ways: at the first point (it also fills the carried [10000, 256] buffer with the
  two projected feature matrices side by side and resets the running column sums to zero), at a middle point, and at
  the last point (it also scales the running column sums). Each time the two [400, 128] output blocks are the
  activation payloads of the point's 400 rows of the propagation matrix, of the carried buffer, of the bias row and of
  the slope row; the [1, 128] block of column sums is the previous block plus this point's column sums (from the zero row
  at the first point; scaled at the last). The carried buffer after the first point is the two stores laid side by
  side; the other points leave it alone.

  Everything here holds for any float values: no arithmetic is opened.
-/
import proofs.«166296_g77644418777158_cont_9to1c4b_421_9_alg».proof.Proof.Gen.KernelIdeal.Frame
import Idealize.ShloMosaic.Lib.Pipeline.Value
import Idealize.ShloMosaic.Lib.Tactic
import proofs.«166296_g77644418777158_cont_9to1c4b_421_9_alg».proof.Proof.LibCoveredLoad

set_option maxRecDepth 16384

noncomputable section

namespace Cert.KernelValue

open Idealize.ShloMosaic Idealize.ShloMosaic.TcCoe Idealize.SL.Sem Idealize.ShloMosaic.Tactic
open Cert.KernelIdeal Cert.KernelIdeal.Gen

variable {F : FTy → Type} [FloatOps F] [Named F]

theorem hz : (![0, 0] : Fin 2 → Nat) = fun _ => 0 := funext fun a => by fin_cases a <;> rfl

/-- The carried buffer after the first point: the projection of the second feature matrix stored in columns
    128..255 over the projection of the first stored in columns 0..127. -/
def sideBySide (x0 x1 : Vec F S10000x128 .f32) (x2 : Vec F S128x128 .f32) : Vec F S10000x256 .f32 :=
  View.canon [(⟨Rect.unit ![0, 128] S10000x128.size inb_S10000x256_S10000x128_0_128, k0_pay3 x2 x1⟩ : View.Piece (Elt F) S10000x256 .f32),
    ⟨Rect.unit ![0, 0] S10000x128.size inb_S10000x256_S10000x128_0_0, k0_pay2 x2 x0⟩]

/-! ## The first point -/

theorem carried_A (c : Dev nD) (i : grid0.Coords) (a1 : Memref sig .tc .vmem S10000x128 .f32) (h1 : a1.IsWhole) (a2 : Memref sig .tc .vmem S10000x128 .f32) (h2 : a2.IsWhole) (a3 : Memref sig .tc .vmem S128x128 .f32) (h3 : a3.IsWhole) (a4 : Memref sig .tc .vmem S400x10000 .f32) (h4 : a4.IsWhole) (a5 : Memref sig .tc .vmem S1x128 .f32) (h5 : a5.IsWhole) (a6 : Memref sig .tc .vmem S1x128 .f32) (h6 : a6.IsWhole) (a7 : Memref sig .tc .vmem S400x128 .f32) (h7 : a7.IsWhole) (a8 : Memref sig .tc .vmem S400x128 .f32) (h8 : a8.IsWhole) (a9 : Memref sig .tc .vmem S1x128 .f32) (h9 : a9.IsWhole) (a10 : Memref sig .tc .vmem S10000x256 .f32) (h10 : a10.IsWhole) (hc0 : cond0_0 i) (hc1 : ¬cond0_1 i) (x0 : Vec F S10000x128 .f32) (x1 : Vec F S10000x128 .f32) (x2 : Vec F S128x128 .f32) (x3 : Vec F S400x10000 .f32) (x4 : Vec F S1x128 .f32) (x5 : Vec F S1x128 .f32) :
    sout0_A_0 c i a1 h1 a2 h2 a3 h3 a4 h4 a5 h5 a6 h6 a7 h7 a8 h8 a9 h9 a10 h10 hc0 hc1 x0 x1 x2 x3 x4 x5 = sideBySide x0 x1 x2 := by
  unfold sout0_A_0
  rw [View.read_writes_eq_canon _ _ _ (scover0_A_0 c i a1 h1 a2 h2 a3 h3 a4 h4 a5 h5 a6 h6 a7 h7 a8 h8 a9 h9 a10 h10 hc0 hc1 x0 x1 x2 x3 x4 x5)]
  unfold kernelRun0_A
  dsimp only
  sl_unfold_words
  simp only [View.readAt_eq_ld, h1.read_unread, h2.read_unread, h3.read_unread, h4.read_unread, h5.read_unread, h6.read_unread, h9.read_unread, h10.read_unread, View.ld_unit_zero (S := S10000x128) hz, View.ld_unit_zero (S := S128x128) hz, View.ld_unit_zero (S := S400x10000) hz, View.ld_unit_zero (S := S1x128) hz, View.ld_unit_zero (S := S10000x256) hz]
  rfl

theorem out6_A (c : Dev nD) (i : grid0.Coords) (a1 : Memref sig .tc .vmem S10000x128 .f32) (h1 : a1.IsWhole) (a2 : Memref sig .tc .vmem S10000x128 .f32) (h2 : a2.IsWhole) (a3 : Memref sig .tc .vmem S128x128 .f32) (h3 : a3.IsWhole) (a4 : Memref sig .tc .vmem S400x10000 .f32) (h4 : a4.IsWhole) (a5 : Memref sig .tc .vmem S1x128 .f32) (h5 : a5.IsWhole) (a6 : Memref sig .tc .vmem S1x128 .f32) (h6 : a6.IsWhole) (a7 : Memref sig .tc .vmem S400x128 .f32) (h7 : a7.IsWhole) (a8 : Memref sig .tc .vmem S400x128 .f32) (h8 : a8.IsWhole) (a9 : Memref sig .tc .vmem S1x128 .f32) (h9 : a9.IsWhole) (a10 : Memref sig .tc .vmem S10000x256 .f32) (h10 : a10.IsWhole) (hc0 : cond0_0 i) (hc1 : ¬cond0_1 i) (x0 : Vec F S10000x128 .f32) (x1 : Vec F S10000x128 .f32) (x2 : Vec F S128x128 .f32) (x3 : Vec F S400x10000 .f32) (x4 : Vec F S1x128 .f32) (x5 : Vec F S1x128 .f32) :
    out0_A_6 c i a1 h1 a2 h2 a3 h3 a4 h4 a5 h5 a6 h6 a7 h7 a8 h8 a9 h9 a10 h10 hc0 hc1 x0 x1 x2 x3 x4 x5 = k0_pay8 x3 (sideBySide x0 x1 x2) x4 x5 := by
  unfold out0_A_6
  rw [View.read_writes_eq_canon _ _ _ (cover0_A_6 c i a1 h1 a2 h2 a3 h3 a4 h4 a5 h5 a6 h6 a7 h7 a8 h8 a9 h9 a10 h10 hc0 hc1 x0 x1 x2 x3 x4 x5)]
  unfold kernelRun0_A
  dsimp only
  sl_unfold_words
  rw [View.canon_unit_zero hz, View.readCov_whole_eq_canon (S := S10000x256) _ hz]
  simp only [View.readAt_eq_ld, h1.read_unread, h2.read_unread, h3.read_unread, h4.read_unread, h5.read_unread, h6.read_unread, h9.read_unread, h10.read_unread, View.ld_unit_zero (S := S10000x128) hz, View.ld_unit_zero (S := S128x128) hz, View.ld_unit_zero (S := S400x10000) hz, View.ld_unit_zero (S := S1x128) hz, View.ld_unit_zero (S := S10000x256) hz]
  rfl

theorem out7_A (c : Dev nD) (i : grid0.Coords) (a1 : Memref sig .tc .vmem S10000x128 .f32) (h1 : a1.IsWhole) (a2 : Memref sig .tc .vmem S10000x128 .f32) (h2 : a2.IsWhole) (a3 : Memref sig .tc .vmem S128x128 .f32) (h3 : a3.IsWhole) (a4 : Memref sig .tc .vmem S400x10000 .f32) (h4 : a4.IsWhole) (a5 : Memref sig .tc .vmem S1x128 .f32) (h5 : a5.IsWhole) (a6 : Memref sig .tc .vmem S1x128 .f32) (h6 : a6.IsWhole) (a7 : Memref sig .tc .vmem S400x128 .f32) (h7 : a7.IsWhole) (a8 : Memref sig .tc .vmem S400x128 .f32) (h8 : a8.IsWhole) (a9 : Memref sig .tc .vmem S1x128 .f32) (h9 : a9.IsWhole) (a10 : Memref sig .tc .vmem S10000x256 .f32) (h10 : a10.IsWhole) (hc0 : cond0_0 i) (hc1 : ¬cond0_1 i) (x0 : Vec F S10000x128 .f32) (x1 : Vec F S10000x128 .f32) (x2 : Vec F S128x128 .f32) (x3 : Vec F S400x10000 .f32) (x4 : Vec F S1x128 .f32) (x5 : Vec F S1x128 .f32) :
    out0_A_7 c i a1 h1 a2 h2 a3 h3 a4 h4 a5 h5 a6 h6 a7 h7 a8 h8 a9 h9 a10 h10 hc0 hc1 x0 x1 x2 x3 x4 x5 = k0_pay9 x3 (sideBySide x0 x1 x2) x4 x5 := by
  unfold out0_A_7
  rw [View.read_writes_eq_canon _ _ _ (cover0_A_7 c i a1 h1 a2 h2 a3 h3 a4 h4 a5 h5 a6 h6 a7 h7 a8 h8 a9 h9 a10 h10 hc0 hc1 x0 x1 x2 x3 x4 x5)]
  unfold kernelRun0_A
  dsimp only
  sl_unfold_words
  rw [View.canon_unit_zero hz, View.readCov_whole_eq_canon (S := S10000x256) _ hz]
  simp only [View.readAt_eq_ld, h1.read_unread, h2.read_unread, h3.read_unread, h4.read_unread, h5.read_unread, h6.read_unread, h9.read_unread, h10.read_unread, View.ld_unit_zero (S := S10000x128) hz, View.ld_unit_zero (S := S128x128) hz, View.ld_unit_zero (S := S400x10000) hz, View.ld_unit_zero (S := S1x128) hz, View.ld_unit_zero (S := S10000x256) hz]
  rfl

theorem out8_A (c : Dev nD) (i : grid0.Coords) (a1 : Memref sig .tc .vmem S10000x128 .f32) (h1 : a1.IsWhole) (a2 : Memref sig .tc .vmem S10000x128 .f32) (h2 : a2.IsWhole) (a3 : Memref sig .tc .vmem S128x128 .f32) (h3 : a3.IsWhole) (a4 : Memref sig .tc .vmem S400x10000 .f32) (h4 : a4.IsWhole) (a5 : Memref sig .tc .vmem S1x128 .f32) (h5 : a5.IsWhole) (a6 : Memref sig .tc .vmem S1x128 .f32) (h6 : a6.IsWhole) (a7 : Memref sig .tc .vmem S400x128 .f32) (h7 : a7.IsWhole) (a8 : Memref sig .tc .vmem S400x128 .f32) (h8 : a8.IsWhole) (a9 : Memref sig .tc .vmem S1x128 .f32) (h9 : a9.IsWhole) (a10 : Memref sig .tc .vmem S10000x256 .f32) (h10 : a10.IsWhole) (hc0 : cond0_0 i) (hc1 : ¬cond0_1 i) (x0 : Vec F S10000x128 .f32) (x1 : Vec F S10000x128 .f32) (x2 : Vec F S128x128 .f32) (x3 : Vec F S400x10000 .f32) (x4 : Vec F S1x128 .f32) (x5 : Vec F S1x128 .f32) :
    out0_A_8 c i a1 h1 a2 h2 a3 h3 a4 h4 a5 h5 a6 h6 a7 h7 a8 h8 a9 h9 a10 h10 hc0 hc1 x0 x1 x2 x3 x4 x5 = k0_pay10 x3 (sideBySide x0 x1 x2) x4 x5 (k0_pay4 (F := F)) := by
  unfold out0_A_8
  rw [View.read_writes_eq_canon _ _ _ (cover0_A_8 c i a1 h1 a2 h2 a3 h3 a4 h4 a5 h5 a6 h6 a7 h7 a8 h8 a9 h9 a10 h10 hc0 hc1 x0 x1 x2 x3 x4 x5)]
  unfold kernelRun0_A
  dsimp only
  sl_unfold_words
  rw [View.canon_cons_unit_zero (S := S1x128) hz, View.readCov_unit_zero (S := S1x128) _ hz, View.readCov_whole_eq_canon (S := S10000x256) _ hz]
  simp only [View.readAt_eq_ld, h1.read_unread, h2.read_unread, h3.read_unread, h4.read_unread, h5.read_unread, h6.read_unread, h9.read_unread, h10.read_unread, View.ld_unit_zero (S := S10000x128) hz, View.ld_unit_zero (S := S128x128) hz, View.ld_unit_zero (S := S400x10000) hz, View.ld_unit_zero (S := S1x128) hz, View.ld_unit_zero (S := S10000x256) hz]
  rfl

/-! ## A middle point -/

theorem out6_B (c : Dev nD) (i : grid0.Coords) (a1 : Memref sig .tc .vmem S10000x128 .f32) (h1 : a1.IsWhole) (a2 : Memref sig .tc .vmem S10000x128 .f32) (h2 : a2.IsWhole) (a3 : Memref sig .tc .vmem S128x128 .f32) (h3 : a3.IsWhole) (a4 : Memref sig .tc .vmem S400x10000 .f32) (h4 : a4.IsWhole) (a5 : Memref sig .tc .vmem S1x128 .f32) (h5 : a5.IsWhole) (a6 : Memref sig .tc .vmem S1x128 .f32) (h6 : a6.IsWhole) (a7 : Memref sig .tc .vmem S400x128 .f32) (h7 : a7.IsWhole) (a8 : Memref sig .tc .vmem S400x128 .f32) (h8 : a8.IsWhole) (a9 : Memref sig .tc .vmem S1x128 .f32) (h9 : a9.IsWhole) (a10 : Memref sig .tc .vmem S10000x256 .f32) (h10 : a10.IsWhole) (hc0 : ¬cond0_0 i) (hc1 : ¬cond0_1 i) (x0 : Vec F S10000x128 .f32) (x1 : Vec F S10000x128 .f32) (x2 : Vec F S128x128 .f32) (x3 : Vec F S400x10000 .f32) (x4 : Vec F S1x128 .f32) (x5 : Vec F S1x128 .f32) (xo8 : Vec F S1x128 .f32) (xs0 : Vec F S10000x256 .f32) :
    out0_B_6 c i a1 h1 a2 h2 a3 h3 a4 h4 a5 h5 a6 h6 a7 h7 a8 h8 a9 h9 a10 h10 hc0 hc1 x0 x1 x2 x3 x4 x5 xo8 xs0 = k0_pay8 x3 xs0 x4 x5 := by
  unfold out0_B_6
  rw [View.read_writes_eq_canon _ _ _ (cover0_B_6 c i a1 h1 a2 h2 a3 h3 a4 h4 a5 h5 a6 h6 a7 h7 a8 h8 a9 h9 a10 h10 hc0 hc1 x0 x1 x2 x3 x4 x5 xo8 xs0)]
  unfold kernelRun0_B
  dsimp only
  rw [View.canon_unit_zero hz]
  simp only [View.readAt_eq_ld, h1.read_unread, h2.read_unread, h3.read_unread, h4.read_unread, h5.read_unread, h6.read_unread, h9.read_unread, h10.read_unread, View.ld_unit_zero (S := S10000x128) hz, View.ld_unit_zero (S := S128x128) hz, View.ld_unit_zero (S := S400x10000) hz, View.ld_unit_zero (S := S1x128) hz, View.ld_unit_zero (S := S10000x256) hz]

theorem out7_B (c : Dev nD) (i : grid0.Coords) (a1 : Memref sig .tc .vmem S10000x128 .f32) (h1 : a1.IsWhole) (a2 : Memref sig .tc .vmem S10000x128 .f32) (h2 : a2.IsWhole) (a3 : Memref sig .tc .vmem S128x128 .f32) (h3 : a3.IsWhole) (a4 : Memref sig .tc .vmem S400x10000 .f32) (h4 : a4.IsWhole) (a5 : Memref sig .tc .vmem S1x128 .f32) (h5 : a5.IsWhole) (a6 : Memref sig .tc .vmem S1x128 .f32) (h6 : a6.IsWhole) (a7 : Memref sig .tc .vmem S400x128 .f32) (h7 : a7.IsWhole) (a8 : Memref sig .tc .vmem S400x128 .f32) (h8 : a8.IsWhole) (a9 : Memref sig .tc .vmem S1x128 .f32) (h9 : a9.IsWhole) (a10 : Memref sig .tc .vmem S10000x256 .f32) (h10 : a10.IsWhole) (hc0 : ¬cond0_0 i) (hc1 : ¬cond0_1 i) (x0 : Vec F S10000x128 .f32) (x1 : Vec F S10000x128 .f32) (x2 : Vec F S128x128 .f32) (x3 : Vec F S400x10000 .f32) (x4 : Vec F S1x128 .f32) (x5 : Vec F S1x128 .f32) (xo8 : Vec F S1x128 .f32) (xs0 : Vec F S10000x256 .f32) :
    out0_B_7 c i a1 h1 a2 h2 a3 h3 a4 h4 a5 h5 a6 h6 a7 h7 a8 h8 a9 h9 a10 h10 hc0 hc1 x0 x1 x2 x3 x4 x5 xo8 xs0 = k0_pay9 x3 xs0 x4 x5 := by
  unfold out0_B_7
  rw [View.read_writes_eq_canon _ _ _ (cover0_B_7 c i a1 h1 a2 h2 a3 h3 a4 h4 a5 h5 a6 h6 a7 h7 a8 h8 a9 h9 a10 h10 hc0 hc1 x0 x1 x2 x3 x4 x5 xo8 xs0)]
  unfold kernelRun0_B
  dsimp only
  rw [View.canon_unit_zero hz]
  simp only [View.readAt_eq_ld, h1.read_unread, h2.read_unread, h3.read_unread, h4.read_unread, h5.read_unread, h6.read_unread, h9.read_unread, h10.read_unread, View.ld_unit_zero (S := S10000x128) hz, View.ld_unit_zero (S := S128x128) hz, View.ld_unit_zero (S := S400x10000) hz, View.ld_unit_zero (S := S1x128) hz, View.ld_unit_zero (S := S10000x256) hz]

theorem out8_B (c : Dev nD) (i : grid0.Coords) (a1 : Memref sig .tc .vmem S10000x128 .f32) (h1 : a1.IsWhole) (a2 : Memref sig .tc .vmem S10000x128 .f32) (h2 : a2.IsWhole) (a3 : Memref sig .tc .vmem S128x128 .f32) (h3 : a3.IsWhole) (a4 : Memref sig .tc .vmem S400x10000 .f32) (h4 : a4.IsWhole) (a5 : Memref sig .tc .vmem S1x128 .f32) (h5 : a5.IsWhole) (a6 : Memref sig .tc .vmem S1x128 .f32) (h6 : a6.IsWhole) (a7 : Memref sig .tc .vmem S400x128 .f32) (h7 : a7.IsWhole) (a8 : Memref sig .tc .vmem S400x128 .f32) (h8 : a8.IsWhole) (a9 : Memref sig .tc .vmem S1x128 .f32) (h9 : a9.IsWhole) (a10 : Memref sig .tc .vmem S10000x256 .f32) (h10 : a10.IsWhole) (hc0 : ¬cond0_0 i) (hc1 : ¬cond0_1 i) (x0 : Vec F S10000x128 .f32) (x1 : Vec F S10000x128 .f32) (x2 : Vec F S128x128 .f32) (x3 : Vec F S400x10000 .f32) (x4 : Vec F S1x128 .f32) (x5 : Vec F S1x128 .f32) (xo8 : Vec F S1x128 .f32) (xs0 : Vec F S10000x256 .f32) :
    out0_B_8 c i a1 h1 a2 h2 a3 h3 a4 h4 a5 h5 a6 h6 a7 h7 a8 h8 a9 h9 a10 h10 hc0 hc1 x0 x1 x2 x3 x4 x5 xo8 xs0 = k0_pay10 x3 xs0 x4 x5 xo8 := by
  unfold out0_B_8
  rw [View.read_writes_eq_canon _ _ _ (cover0_B_8 c i a1 h1 a2 h2 a3 h3 a4 h4 a5 h5 a6 h6 a7 h7 a8 h8 a9 h9 a10 h10 hc0 hc1 x0 x1 x2 x3 x4 x5 xo8 xs0)]
  unfold kernelRun0_B
  dsimp only
  sl_unfold_words
  rw [View.canon_unit_zero hz]
  simp only [View.readAt_eq_ld, h1.read_unread, h2.read_unread, h3.read_unread, h4.read_unread, h5.read_unread, h6.read_unread, h9.read_unread, h10.read_unread, View.ld_unit_zero (S := S10000x128) hz, View.ld_unit_zero (S := S128x128) hz, View.ld_unit_zero (S := S400x10000) hz, View.ld_unit_zero (S := S1x128) hz, View.ld_unit_zero (S := S10000x256) hz]

/-! ## The last point -/

theorem out6_C (c : Dev nD) (i : grid0.Coords) (a1 : Memref sig .tc .vmem S10000x128 .f32) (h1 : a1.IsWhole) (a2 : Memref sig .tc .vmem S10000x128 .f32) (h2 : a2.IsWhole) (a3 : Memref sig .tc .vmem S128x128 .f32) (h3 : a3.IsWhole) (a4 : Memref sig .tc .vmem S400x10000 .f32) (h4 : a4.IsWhole) (a5 : Memref sig .tc .vmem S1x128 .f32) (h5 : a5.IsWhole) (a6 : Memref sig .tc .vmem S1x128 .f32) (h6 : a6.IsWhole) (a7 : Memref sig .tc .vmem S400x128 .f32) (h7 : a7.IsWhole) (a8 : Memref sig .tc .vmem S400x128 .f32) (h8 : a8.IsWhole) (a9 : Memref sig .tc .vmem S1x128 .f32) (h9 : a9.IsWhole) (a10 : Memref sig .tc .vmem S10000x256 .f32) (h10 : a10.IsWhole) (hc0 : ¬cond0_0 i) (hc1 : cond0_1 i) (x0 : Vec F S10000x128 .f32) (x1 : Vec F S10000x128 .f32) (x2 : Vec F S128x128 .f32) (x3 : Vec F S400x10000 .f32) (x4 : Vec F S1x128 .f32) (x5 : Vec F S1x128 .f32) (xo8 : Vec F S1x128 .f32) (xs0 : Vec F S10000x256 .f32) :
    out0_C_6 c i a1 h1 a2 h2 a3 h3 a4 h4 a5 h5 a6 h6 a7 h7 a8 h8 a9 h9 a10 h10 hc0 hc1 x0 x1 x2 x3 x4 x5 xo8 xs0 = k0_pay8 x3 xs0 x4 x5 := by
  unfold out0_C_6
  rw [View.read_writes_eq_canon _ _ _ (cover0_C_6 c i a1 h1 a2 h2 a3 h3 a4 h4 a5 h5 a6 h6 a7 h7 a8 h8 a9 h9 a10 h10 hc0 hc1 x0 x1 x2 x3 x4 x5 xo8 xs0)]
  unfold kernelRun0_C
  dsimp only
  rw [View.canon_unit_zero hz]
  simp only [View.readAt_eq_ld, h1.read_unread, h2.read_unread, h3.read_unread, h4.read_unread, h5.read_unread, h6.read_unread, h9.read_unread, h10.read_unread, View.ld_unit_zero (S := S10000x128) hz, View.ld_unit_zero (S := S128x128) hz, View.ld_unit_zero (S := S400x10000) hz, View.ld_unit_zero (S := S1x128) hz, View.ld_unit_zero (S := S10000x256) hz]

theorem out7_C (c : Dev nD) (i : grid0.Coords) (a1 : Memref sig .tc .vmem S10000x128 .f32) (h1 : a1.IsWhole) (a2 : Memref sig .tc .vmem S10000x128 .f32) (h2 : a2.IsWhole) (a3 : Memref sig .tc .vmem S128x128 .f32) (h3 : a3.IsWhole) (a4 : Memref sig .tc .vmem S400x10000 .f32) (h4 : a4.IsWhole) (a5 : Memref sig .tc .vmem S1x128 .f32) (h5 : a5.IsWhole) (a6 : Memref sig .tc .vmem S1x128 .f32) (h6 : a6.IsWhole) (a7 : Memref sig .tc .vmem S400x128 .f32) (h7 : a7.IsWhole) (a8 : Memref sig .tc .vmem S400x128 .f32) (h8 : a8.IsWhole) (a9 : Memref sig .tc .vmem S1x128 .f32) (h9 : a9.IsWhole) (a10 : Memref sig .tc .vmem S10000x256 .f32) (h10 : a10.IsWhole) (hc0 : ¬cond0_0 i) (hc1 : cond0_1 i) (x0 : Vec F S10000x128 .f32) (x1 : Vec F S10000x128 .f32) (x2 : Vec F S128x128 .f32) (x3 : Vec F S400x10000 .f32) (x4 : Vec F S1x128 .f32) (x5 : Vec F S1x128 .f32) (xo8 : Vec F S1x128 .f32) (xs0 : Vec F S10000x256 .f32) :
    out0_C_7 c i a1 h1 a2 h2 a3 h3 a4 h4 a5 h5 a6 h6 a7 h7 a8 h8 a9 h9 a10 h10 hc0 hc1 x0 x1 x2 x3 x4 x5 xo8 xs0 = k0_pay9 x3 xs0 x4 x5 := by
  unfold out0_C_7
  rw [View.read_writes_eq_canon _ _ _ (cover0_C_7 c i a1 h1 a2 h2 a3 h3 a4 h4 a5 h5 a6 h6 a7 h7 a8 h8 a9 h9 a10 h10 hc0 hc1 x0 x1 x2 x3 x4 x5 xo8 xs0)]
  unfold kernelRun0_C
  dsimp only
  rw [View.canon_unit_zero hz]
  simp only [View.readAt_eq_ld, h1.read_unread, h2.read_unread, h3.read_unread, h4.read_unread, h5.read_unread, h6.read_unread, h9.read_unread, h10.read_unread, View.ld_unit_zero (S := S10000x128) hz, View.ld_unit_zero (S := S128x128) hz, View.ld_unit_zero (S := S400x10000) hz, View.ld_unit_zero (S := S1x128) hz, View.ld_unit_zero (S := S10000x256) hz]

theorem out8_C (c : Dev nD) (i : grid0.Coords) (a1 : Memref sig .tc .vmem S10000x128 .f32) (h1 : a1.IsWhole) (a2 : Memref sig .tc .vmem S10000x128 .f32) (h2 : a2.IsWhole) (a3 : Memref sig .tc .vmem S128x128 .f32) (h3 : a3.IsWhole) (a4 : Memref sig .tc .vmem S400x10000 .f32) (h4 : a4.IsWhole) (a5 : Memref sig .tc .vmem S1x128 .f32) (h5 : a5.IsWhole) (a6 : Memref sig .tc .vmem S1x128 .f32) (h6 : a6.IsWhole) (a7 : Memref sig .tc .vmem S400x128 .f32) (h7 : a7.IsWhole) (a8 : Memref sig .tc .vmem S400x128 .f32) (h8 : a8.IsWhole) (a9 : Memref sig .tc .vmem S1x128 .f32) (h9 : a9.IsWhole) (a10 : Memref sig .tc .vmem S10000x256 .f32) (h10 : a10.IsWhole) (hc0 : ¬cond0_0 i) (hc1 : cond0_1 i) (x0 : Vec F S10000x128 .f32) (x1 : Vec F S10000x128 .f32) (x2 : Vec F S128x128 .f32) (x3 : Vec F S400x10000 .f32) (x4 : Vec F S1x128 .f32) (x5 : Vec F S1x128 .f32) (xo8 : Vec F S1x128 .f32) (xs0 : Vec F S10000x256 .f32) :
    out0_C_8 c i a1 h1 a2 h2 a3 h3 a4 h4 a5 h5 a6 h6 a7 h7 a8 h8 a9 h9 a10 h10 hc0 hc1 x0 x1 x2 x3 x4 x5 xo8 xs0 = k0_pay1 (k0_pay10 x3 xs0 x4 x5 xo8) := by
  unfold out0_C_8
  rw [View.read_writes_eq_canon _ _ _ (cover0_C_8 c i a1 h1 a2 h2 a3 h3 a4 h4 a5 h5 a6 h6 a7 h7 a8 h8 a9 h9 a10 h10 hc0 hc1 x0 x1 x2 x3 x4 x5 xo8 xs0)]
  unfold kernelRun0_C
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h9.read_unread, h10.read_unread, View.ld_unit_zero (S := S10000x128) hz, View.ld_unit_zero (S := S128x128) hz, View.ld_unit_zero (S := S400x10000) hz, View.ld_unit_zero (S := S1x128) hz, View.ld_unit_zero (S := S10000x256) hz]

end Cert.KernelValue

end
-- ==== Proof.BlockReads.lean ====
/-
  The input blocks of a grid point, as entries of the arguments.

  The two feature matrices and the weights are fetched whole: their block at every point is the array. The
  propagation matrix is fetched 400 rows at a time: the block of point t, at (r, k), is the matrix at (400 t + r, k).
  The bias reaches the kernel as a [1, 128] row (the [128] vector with a leading unit axis): at (0, f) it is the bias at
  f. The slope reaches it as a [1, 128] row too (the [1] vector given two axes of extent one, then repeated along the
  128 lanes): at (0, f) it is the one slope.
-/
import proofs.«166296_g77644418777158_cont_9to1c4b_421_9_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout

noncomputable section

namespace Cert.KernelValue

open Idealize.ShloMosaic Idealize.ShloMosaic.TcCoe Idealize.SL.Sem Idealize.ShloMosaic.ValueIdx
open Cert.KernelIdeal Cert.KernelIdeal.Gen

variable {F : FTy → Type} [FloatOps F] [Named F]
variable (m : (ℓ : Loc nD τ sig) → Buf (Elt F) ℓ)

/-! ## Where each window's block sits, decided over the 25 points -/

theorem index0 : ∀ t : Fin cfg0.N, win0_0.index t 0 = 0 ∧ win0_0.index t 1 = 0 :=
  (by decide +kernel : ∀ t : Fin grid0.N, win0_0.index t 0 = 0 ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = t.val ∧ win0_3.index t 1 = 0 :=
  (by decide +kernel : ∀ t : Fin grid0.N, win0_3.index t 0 = t.val ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = 0 ∧ win0_5.index t 1 = 0 :=
  (by decide +kernel : ∀ t : Fin grid0.N, win0_5.index t 0 = 0 ∧ win0_5.index t 1 = 0)

/-! ## The arrays fetched whole -/

/-- The first feature matrix's block is the matrix. -/
theorem features0_block (c : Dev nD) (t : Fin cfg0.N) :
    (iblk m c 0 t : Vec F S10000x128 .f32) = m ((c : Thread nD τ).loc main_arg0) := by
  funext y
  unfold iblk
  rw [View.read_apply]
  show V m c main_arg0 _ = _
  rw [V_main_arg0]
  refine congrArg (m ((c : Thread nD τ).loc main_arg0)) (funext fun a => Fin.ext ?_)
  match a with
  | ⟨0, _⟩ =>
    show win0_0.index t 0 * 10000 + 1 * (y 0).val = (y 0).val
    rw [(index0 t).1]; omega
  | ⟨1, _⟩ =>
    show win0_0.index t 1 * 128 + 1 * (y 1).val = (y 1).val
    rw [(index0 t).2]; omega

/-- The second feature matrix's block is the matrix. -/
theorem features1_block (c : Dev nD) (t : Fin cfg0.N) :
    (iblk m c 1 t : Vec F S10000x128 .f32) = m ((c : Thread nD τ).loc main_arg1) := by
  funext y
  unfold iblk
  rw [View.read_apply]
  show V m c main_arg1 _ = _
  rw [V_main_arg1]
  refine congrArg (m ((c : Thread nD τ).loc main_arg1)) (funext fun a => Fin.ext ?_)
  match a with
  | ⟨0, _⟩ =>
    show win0_1.index t 0 * 10000 + 1 * (y 0).val = (y 0).val
    rw [(index1 t).1]; omega
  | ⟨1, _⟩ =>
    show win0_1.index t 1 * 128 + 1 * (y 1).val = (y 1).val
    rw [(index1 t).2]; omega

/-- The weights' block is the weight matrix. -/
theorem weights_block (c : Dev nD) (t : Fin cfg0.N) :
    (iblk m c 2 t : Vec F S128x128 .f32) = m ((c : Thread nD τ).loc main_arg3) := by
  funext y
  unfold iblk
  rw [View.read_apply]
  show V m c main_arg3 _ = _
  rw [V_main_arg3]
  refine congrArg (m ((c : Thread nD τ).loc main_arg3)) (funext fun a => Fin.ext ?_)
  match a with
  | ⟨0, _⟩ =>
    show win0_2.index t 0 * 128 + 1 * (y 0).val = (y 0).val
    rw [(index2 t).1]; omega
  | ⟨1, _⟩ =>
    show win0_2.index t 1 * 128 + 1 * (y 1).val = (y 1).val
    rw [(index2 t).2]; omega

/-! ## The propagation matrix, 400 rows at a time -/

/-- Point t's block at (r, k) is the matrix at (400 t + r, k). -/
theorem adj_block (c : Dev nD) (t : Fin cfg0.N) (r : Fin 400) (k : Fin 10000) (p : Fin 10000)
    (hp : p.val = 400 * t.val + r.val) :
    (iblk m c 3 t : Vec F S400x10000 .f32) (ix2 r k) = m ((c : Thread nD τ).loc main_arg2) (ix2 p k) := by
  unfold iblk
  rw [View.read_apply]
  show V m c main_arg2 _ = _
  rw [V_main_arg2]
  refine congrArg (m ((c : Thread nD τ).loc main_arg2)) (funext fun a => Fin.ext ?_)
  match a with
  | ⟨0, _⟩ =>
    show win0_3.index t 0 * 400 + 1 * r.val = p.val
    rw [(index3 t).1, hp]; omega
  | ⟨1, _⟩ =>
    show win0_3.index t 1 * 10000 + 1 * k.val = k.val
    rw [(index3 t).2]; omega

/-! ## The bias row and the slope row -/

/-- The bias as the region finds it: the vector with a leading unit axis. -/
theorem bias_array (c : Dev nD) :
    (V m c main_v0 : S1x128.Idx → Elt F .f32) = shapeCast S1x128 (m ((c : Thread nD τ).loc main_arg4)) shapeCasts_S128_S1x128 := by
  dsimp only [Gen.V, Gen.hostOps0]
  after_results
  rfl

/-- The slope as the region finds it: the one entry, given two unit axes, repeated along the lanes. -/
theorem slope_array (c : Dev nD) :
    (V m c main_v2 : S1x128.Idx → Elt F .f32)
      = broadcastInDim S1x128 ![0, 1] bcast_S1x1_S1x128_0_1
          (shapeCast S1x1 (m ((c : Thread nD τ).loc main_arg5)) shapeCasts_S1_S1x1) := by
  dsimp only [Gen.V, Gen.hostOps0]
  after_results
  rfl

/-- The bias row's block at (0, f) is the bias at f. -/
theorem bias_block (c : Dev nD) (t : Fin cfg0.N) (u : Fin 1) (f : Fin 128) :
    (iblk m c 4 t : Vec F S1x128 .f32) (ix2 u f) = m ((c : Thread nD τ).loc main_arg4) (ix1 f) := by
  unfold iblk
  rw [View.read_apply]
  show (V m c main_v0 : S1x128.Idx → Elt F .f32) _ = _
  rw [bias_array]
  refine Eq.trans (congrArg (shapeCast S1x128 (m ((c : Thread nD τ).loc main_arg4)) shapeCasts_S128_S1x128)
    (funext fun a => Fin.ext ?_)) (shapeCast_a_1a_apply _ _ u f)
  match a with
  | ⟨0, _⟩ =>
    show win0_4.index t 0 * 1 + 1 * u.val = u.val
    rw [(index4 t).1]; omega
  | ⟨1, _⟩ =>
    show win0_4.index t 1 * 128 + 1 * f.val = f.val
    rw [(index4 t).2]; omega

/-- The slope row's block at (0, f) is the one slope. -/
theorem slope_block (c : Dev nD) (t : Fin cfg0.N) (u : Fin 1) (f : Fin 128) :
    (iblk m c 5 t : Vec F S1x128 .f32) (ix2 u f) = m ((c : Thread nD τ).loc main_arg5) (ix1 (0 : Fin 1)) := by
  unfold iblk
  rw [View.read_apply]
  show (V m c main_v2 : S1x128.Idx → Elt F .f32) _ = _
  rw [slope_array]
  have he : (((cfg0.win 5).blk t).view.emb (ix2 u f) : S1x128.Idx) = ix2 u f := funext fun a => Fin.ext (by
    match a with
    | ⟨0, _⟩ =>
      show win0_5.index t 0 * 1 + 1 * u.val = u.val
      rw [(index5 t).1]; omega
    | ⟨1, _⟩ =>
      show win0_5.index t 1 * 128 + 1 * f.val = f.val
      rw [(index5 t).2]; omega)
  rw [he]
  refine (broadcastInDim_apply _ bcast_S1x1_S1x128_0_1 _ (ix2 u f) (ix2 (0 : Fin 1) (0 : Fin 1)) (fun a => ?_)).trans
    (shapeCast_a_1a_apply _ _ (0 : Fin 1) (0 : Fin 1))
  match a with
  | ⟨0, _⟩ => rfl
  | ⟨1, _⟩ => rfl

end Cert.KernelValue

end
-- ==== Proof.PointValues.lean ====
/-
  What the kernel's buffers hold after each of the 25 grid points.

  By induction over the points: the carried [10000, 256] buffer holds, after every point, the two projected feature
  matrices side by side (the first point stores them, no later point touches them); so at every point the two output
  blocks are the activation payloads of the point's rows of the propagation matrix against that one buffer; and the
  [1, 128] block of column sums after point n is the zero row plus the column sums of the first output's blocks of
  points 0..n, added one point after another, the last point also scaling the total.

  Stated for any float values: the payloads stay closed.
-/
import proofs.«166296_g77644418777158_cont_9to1c4b_421_9_alg».proof.Proof.Pieces
import proofs.«166296_g77644418777158_cont_9to1c4b_421_9_alg».proof.Proof.BlockReads

set_option maxRecDepth 16384

noncomputable section

namespace Cert.KernelValue

open Idealize.ShloMosaic Idealize.ShloMosaic.TcCoe Idealize.SL.Sem
open Cert.KernelIdeal Cert.KernelIdeal.Gen

variable {F : FTy → Type} [FloatOps F] [Named F]
variable (m : (ℓ : Loc nD τ sig) → Buf (Elt F) ℓ)

/-- The carried buffer's contents after every point: the two projections side by side. -/
def carried (c : Dev nD) : Vec F S10000x256 .f32 :=
  sideBySide (m ((c : Thread nD τ).loc main_arg0)) (m ((c : Thread nD τ).loc main_arg1)) (m ((c : Thread nD τ).loc main_arg3))

/-- After every point the carried buffer holds the two projections side by side. -/
theorem carried_eq (c : Dev nD) : ∀ (n : ℕ) (hn : n < cfg0.N), (outsAt0 m c n hn).2.2.2 = carried m c
  | 0, hn => by
    have h0 : (⟨0, hn⟩ : Fin cfg0.N).val % 25 = 0 := rfl
    have h1 : ¬(⟨0, hn⟩ : Fin cfg0.N).val % 25 = 24 := by show ¬(0 % 25 = 24); decide
    rw [outsAt0_A m c ⟨0, hn⟩ h0 h1]
    dsimp only
    refine (carried_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr h0) (fun h => h1 ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)).trans ?_
    unfold carried
    rw [features0_block, features1_block, weights_block]
  | n + 1, hn => by
    have hN : n + 1 < 25 := lt_of_lt_of_eq hn (show cfg0.N = 25 from N_0)
    have h0 : ¬(⟨n + 1, hn⟩ : Fin cfg0.N).val % 25 = 0 := by dsimp only; omega
    by_cases h1 : (⟨n + 1, hn⟩ : Fin cfg0.N).val % 25 = 24
    · rw [outsAt0_C m c ⟨n + 1, hn⟩ h0 h1]
      dsimp only
      unfold sout0_C_0
      exact carried_eq c n _
    · rw [outsAt0_B m c ⟨n + 1, hn⟩ h0 h1]
      dsimp only
      unfold sout0_B_0
      exact carried_eq c n _

/-- The carried buffer a point finds is the same one. -/
theorem carried_before (c : Dev nD) (t : Fin cfg0.N) :
    (outsAt0 m c (t.val - 1) (Nat.lt_of_le_of_lt (Nat.sub_le _ _) t.isLt)).2.2.2 = carried m c :=
  carried_eq m c _ _

/-- The first output's block after point t. -/
theorem first_block (c : Dev nD) (t : Fin cfg0.N) :
    (outsAt0 m c t.val t.isLt).1 = k0_pay8 (iblk m c 3 t) (carried m c) (iblk m c 4 t) (iblk m c 5 t) := by
  by_cases h0 : t.val % 25 = 0
  · have h1 : ¬t.val % 25 = 24 := by omega
    rw [outsAt0_A m c t h0 h1]
    dsimp only
    refine (out6_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)).trans ?_
    unfold carried
    rw [features0_block, features1_block, weights_block]
  · by_cases h1 : t.val % 25 = 24
    · rw [outsAt0_C m c t h0 h1]
      dsimp only
      refine (out6_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_
      rw [carried_before]
    · rw [outsAt0_B m c t h0 h1]
      dsimp only
      refine (out6_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_
      rw [carried_before]

/-- The second output's block after point t. -/
theorem second_block (c : Dev nD) (t : Fin cfg0.N) :
    (outsAt0 m c t.val t.isLt).2.1 = k0_pay9 (iblk m c 3 t) (carried m c) (iblk m c 4 t) (iblk m c 5 t) := by
  by_cases h0 : t.val % 25 = 0
  · have h1 : ¬t.val % 25 = 24 := by omega
    rw [outsAt0_A m c t h0 h1]
    dsimp only
    refine (out7_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)).trans ?_
    unfold carried
    rw [features0_block, features1_block, weights_block]
  · by_cases h1 : t.val % 25 = 24
    · rw [outsAt0_C m c t h0 h1]
      dsimp only
      refine (out7_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_
      rw [carried_before]
    · rw [outsAt0_B m c t h0 h1]
      dsimp only
      refine (out7_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_
      rw [carried_before]

/-- The block of column sums after point n, before any scaling: from the zero row, each point adds its own. -/
def sums (c : Dev nD) : (n : ℕ) → n < cfg0.N → Vec F S1x128 .f32
  | 0, h => k0_pay10 (iblk m c 3 ⟨0, h⟩) (carried m c) (iblk m c 4 ⟨0, h⟩) (iblk m c 5 ⟨0, h⟩) (k0_pay4 (F := F))
  | n + 1, h => k0_pay10 (iblk m c 3 ⟨n + 1, h⟩) (carried m c) (iblk m c 4 ⟨n + 1, h⟩) (iblk m c 5 ⟨n + 1, h⟩)
      (sums c n (Nat.lt_of_succ_lt h))

theorem sums_zero (c : Dev nD) (h : 0 < cfg0.N) :
    sums m c 0 h = k0_pay10 (iblk m c 3 ⟨0, h⟩) (carried m c) (iblk m c 4 ⟨0, h⟩) (iblk m c 5 ⟨0, h⟩) (k0_pay4 (F := F)) := rfl

theorem sums_succ (c : Dev nD) (n : ℕ) (h : n + 1 < cfg0.N) :
    sums m c (n + 1) h = k0_pay10 (iblk m c 3 ⟨n + 1, h⟩) (carried m c) (iblk m c 4 ⟨n + 1, h⟩) (iblk m c 5 ⟨n + 1, h⟩)
      (sums m c n (Nat.lt_of_succ_lt h)) := rfl

/-- Before the last point the third output's block is the running block of column sums. -/
theorem sums_eq (c : Dev nD) : ∀ (n : ℕ) (hn : n < cfg0.N), ¬n % 25 = 24 → (outsAt0 m c n hn).2.2.1 = sums m c n hn
  | 0, hn, _ => by
    have h0 : (⟨0, hn⟩ : Fin cfg0.N).val % 25 = 0 := rfl
    have h1 : ¬(⟨0, hn⟩ : Fin cfg0.N).val % 25 = 24 := by show ¬(0 % 25 = 24); decide
    rw [outsAt0_A m c ⟨0, hn⟩ h0 h1]
    dsimp only
    refine (out8_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr h0) (fun h => h1 ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)).trans ?_
    rw [sums_zero]
    unfold carried
    rw [features0_block, features1_block, weights_block]
  | n + 1, hn, h24 => by
    have hN : n + 1 < 25 := lt_of_lt_of_eq hn (show cfg0.N = 25 from N_0)
    have h0 : ¬(⟨n + 1, hn⟩ : Fin cfg0.N).val % 25 = 0 := by dsimp only; omega
    have h1 : ¬(⟨n + 1, hn⟩ : Fin cfg0.N).val % 25 = 24 := h24
    rw [outsAt0_B m c ⟨n + 1, hn⟩ h0 h1]
    dsimp only
    refine (out8_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 m c ((⟨n + 1, hn⟩ : Fin cfg0.N).val - 1) (Nat.lt_of_le_of_lt (Nat.sub_le _ _) (⟨n + 1, hn⟩ : Fin cfg0.N).isLt)).2.2.1 (outsAt0 m c ((⟨n + 1, hn⟩ : Fin cfg0.N).val - 1) (Nat.lt_of_le_of_lt (Nat.sub_le _ _) (⟨n + 1, hn⟩ : Fin cfg0.N).isLt)).2.2.2).trans ?_
    rw [carried_before, sums_succ]
    exact congrArg (k0_pay10 (iblk m c 3 ⟨n + 1, hn⟩) (carried m c) (iblk m c 4 ⟨n + 1, hn⟩) (iblk m c 5 ⟨n + 1, hn⟩))
      (sums_eq c n (Nat.lt_of_succ_lt hn) (by omega))

/-- After the last point the third output's block is the scaled total. -/
theorem last_block (c : Dev nD) (n : ℕ) (hn : n + 1 < cfg0.N) (h24 : (n + 1) % 25 = 24) :
    (outsAt0 m c (n + 1) hn).2.2.1 = k0_pay1 (sums m c (n + 1) hn) := by
  have hN : n + 1 < 25 := lt_of_lt_of_eq hn (show cfg0.N = 25 from N_0)
  have h0 : ¬(⟨n + 1, hn⟩ : Fin cfg0.N).val % 25 = 0 := by dsimp only; omega
  have h1 : (⟨n + 1, hn⟩ : Fin cfg0.N).val % 25 = 24 := h24
  rw [outsAt0_C m c ⟨n + 1, hn⟩ h0 h1]
  dsimp only
  refine (out8_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 m c ((⟨n + 1, hn⟩ : Fin cfg0.N).val - 1) (Nat.lt_of_le_of_lt (Nat.sub_le _ _) (⟨n + 1, hn⟩ : Fin cfg0.N).isLt)).2.2.1 (outsAt0 m c ((⟨n + 1, hn⟩ : Fin cfg0.N).val - 1) (Nat.lt_of_le_of_lt (Nat.sub_le _ _) (⟨n + 1, hn⟩ : Fin cfg0.N).isLt)).2.2.2).trans ?_
  rw [carried_before, sums_succ]
  exact congrArg (fun z => k0_pay1 (k0_pay10 (iblk m c 3 ⟨n + 1, hn⟩) (carried m c) (iblk m c 4 ⟨n + 1, hn⟩) (iblk m c 5 ⟨n + 1, hn⟩) z))
    (sums_eq m c n (Nat.lt_of_succ_lt hn) (by omega))

end Cert.KernelValue

end
-- ==== Proof.Spec.lean ====
/-
  The mathematics of the two programs, on the extended reals, with no program in sight.

  A graph layer with shared weights: for node features x of shape [10000, 128], weights w of shape [128, 128], a
  dense propagation matrix adj of shape [10000, 10000], a bias b of length 128 and one slope a,

      proj x w (k, f)      = sum over d of  x (k, d) * w (d, f)                        (the projected features)
      pre  ... (p, f)      = (sum over k of  adj (p, k) * proj x w (k, f)) + b f       (propagate, add the bias)
      hidden ... (p, f)    = pre if pre >= 0, else a * pre                             (the leaky activation)
      pooled ... f         = (0 + sum over all 10000 nodes p of hidden (p, f)) / 10000  (the mean over the nodes)

  Two facts about sums are kept here because they are what joins a blockwise evaluation to the whole one: a sum over
  the first 400 (n + 1) naturals is the sum over the first 400 n followed by the next 400 (so 25 consecutive blocks of
  400 rows, added one block after another starting from zero, make the sum over all 10000 rows), and a quotient by the
  real 10000 is the product with the real 1/10000 on every extended real, the infinities included.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- Node features: 10000 nodes, 128 features each. -/
abbrev Sx : Shape := ⟨2, ![10000, 128]⟩
/-- The weights. -/
abbrev Sw : Shape := ⟨2, ![128, 128]⟩
/-- The propagation matrix. -/
abbrev Sadj : Shape := ⟨2, ![10000, 10000]⟩
/-- The bias. -/
abbrev Sb : Shape := ⟨1, ![128]⟩
/-- The slope. -/
abbrev Sa : Shape := ⟨1, ![1]⟩
/-- The pooled row. -/
abbrev Sc : Shape := ⟨2, ![1, 128]⟩
/-- Two projected feature matrices side by side. -/
abbrev Sxx : Shape := ⟨2, ![10000, 256]⟩

/-- The zero every sum starts from, as the word both programs spell. -/
abbrev zero : EReal := Ideal.ofBits .f32 0x00000000#32

/-- The projected features: row k of x against column f of w. -/
def proj (x : FVec Ideal Sx .f32) (w : FVec Ideal Sw .f32) : FVec Ideal Sx .f32 :=
  fun j => ∑ d : Fin 128, x (ix2 (j 0) d) * w (ix2 d (j 1))

theorem proj_apply (x : FVec Ideal Sx .f32) (w : FVec Ideal Sw .f32) (k : Fin 10000) (f : Fin 128) :
    proj x w (ix2 k f) = ∑ d : Fin 128, x (ix2 k d) * w (ix2 d f) := rfl

/-- Propagation along row p of adj of any [10000, 128] matrix P, plus the bias. -/
def pre (P : FVec Ideal Sx .f32) (adj : FVec Ideal Sadj .f32) (b : FVec Ideal Sb .f32) (p : Fin 10000) (f : Fin 128) : EReal :=
  (∑ k : Fin 10000, adj (ix2 p k) * P (ix2 k f)) + b (ix1 f)

/-- The leaky activation at one value: z itself when z >= 0, a * z otherwise, spelt with the comparison and the
    selection both programs apply. -/
def act (a z : EReal) : EReal :=
  Scalar.select (FloatOps.cmpf (F := Ideal) (φ := .f32) .oge z zero) z (a * z)

/-- The layer's output at node p, feature f. -/
def hidden (x : FVec Ideal Sx .f32) (w : FVec Ideal Sw .f32) (adj : FVec Ideal Sadj .f32) (b : FVec Ideal Sb .f32)
    (a : FVec Ideal Sa .f32) : FVec Ideal Sx .f32 :=
  fun j => act (a (ix1 0)) (pre (proj x w) adj b (j 0) (j 1))

theorem hidden_apply (x : FVec Ideal Sx .f32) (w : FVec Ideal Sw .f32) (adj : FVec Ideal Sadj .f32) (b : FVec Ideal Sb .f32)
    (a : FVec Ideal Sa .f32) (p : Fin 10000) (f : Fin 128) :
    hidden x w adj b a (ix2 p f) = act (a (ix1 0)) (pre (proj x w) adj b p f) := rfl

/-- The sum of a [10000, 128] matrix down column f, from zero. -/
def colSum (H : FVec Ideal Sx .f32) (f : Fin 128) : EReal := zero + ∑ p : Fin 10000, H (ix2 p f)

/-- The mean over the nodes, as a quotient by the word 10000.0. -/
def pooled (H : FVec Ideal Sx .f32) : FVec Ideal Sc .f32 :=
  fun j => Ideal.div (colSum H (j 1)) (Ideal.ofBits .f32 0x461C4000#32)

/-! ## Two matrices side by side -/

/-- Columns 0..127 are P1's, columns 128..255 are P2's. -/
def stacked (P1 P2 : FVec Ideal Sx .f32) : FVec Ideal Sxx .f32 := fun y =>
  if h : (y 1).val < 128 then P1 (ix2 (y 0) ⟨(y 1).val, h⟩)
  else P2 (ix2 (y 0) ⟨(y 1).val - 128, by have := idx2_lt1 y; omega⟩)

theorem stacked_left (P1 P2 : FVec Ideal Sx .f32) (k : Fin 10000) (f : Fin 128) (g : Fin 256) (hg : g.val = f.val) :
    stacked P1 P2 (ix2 k g) = P1 (ix2 k f) := by
  unfold stacked
  have h : ((ix2 k g : Sxx.Idx) 1).val < 128 := by show g.val < 128; have := f.isLt; omega
  rw [dif_pos h]
  exact congrArg P1 (funext fun a => Fin.ext (by match a with | ⟨0, _⟩ => rfl | ⟨1, _⟩ => exact hg))

theorem stacked_right (P1 P2 : FVec Ideal Sx .f32) (k : Fin 10000) (f : Fin 128) (g : Fin 256) (hg : g.val = 128 + f.val) :
    stacked P1 P2 (ix2 k g) = P2 (ix2 k f) := by
  unfold stacked
  have h : ¬((ix2 k g : Sxx.Idx) 1).val < 128 := by show ¬g.val < 128; omega
  rw [dif_neg h]
  exact congrArg P2 (funext fun a => Fin.ext (by
    match a with
    | ⟨0, _⟩ => rfl
    | ⟨1, _⟩ => show g.val - 128 = f.val; omega))

/-! ## Sums by blocks of 400 rows -/

/-- A column of a [10000, 128] matrix as a function on all naturals (zero past the last row). -/
def colFn (H : FVec Ideal Sx .f32) (f : Fin 128) (i : ℕ) : EReal :=
  if h : i < 10000 then H (ix2 ⟨i, h⟩ f) else 0

/-- The running sum after the first n blocks of 400 rows, from zero. -/
def running (H : FVec Ideal Sx .f32) (f : Fin 128) (n : ℕ) : EReal :=
  zero + ∑ i ∈ Finset.range (400 * n), colFn H f i

/-- One more block: the running sum after n + 1 blocks is the one after n blocks plus block n's 400 rows. -/
theorem running_succ (H : FVec Ideal Sx .f32) (f : Fin 128) (n : ℕ) :
    running H f (n + 1) = running H f n + ∑ r : Fin 400, colFn H f (400 * n + r.val) := by
  unfold running
  rw [show 400 * (n + 1) = 400 * n + 400 by ring, Finset.sum_range_add, add_assoc,
    Finset.sum_range (fun x => colFn H f (400 * n + x))]

/-- Before any block the running sum is zero plus nothing. -/
theorem running_zero (H : FVec Ideal Sx .f32) (f : Fin 128) : running H f 0 = zero + 0 := by
  unfold running; simp

/-- After all 25 blocks it is the whole column's sum. -/
theorem running_all (H : FVec Ideal Sx .f32) (f : Fin 128) : running H f 25 = colSum H f := by
  unfold running colSum
  rw [show 400 * 25 = 10000 by norm_num, Finset.sum_range]
  refine congrArg (zero + ·) (Finset.sum_congr rfl fun p _ => ?_)
  unfold colFn
  rw [dif_pos p.isLt]

/-- Row 400 n + r, for r below 400 and n below 25, is a row of the matrix. -/
theorem colFn_block (H : FVec Ideal Sx .f32) (f : Fin 128) (n : ℕ) (hn : n < 25) (r : Fin 400)
    (p : Fin 10000) (hp : p.val = 400 * n + r.val) : colFn H f (400 * n + r.val) = H (ix2 p f) := by
  unfold colFn
  have h : 400 * n + r.val < 10000 := by have := r.isLt; omega
  rw [dif_pos h]
  exact congrArg H (funext fun a => Fin.ext (by match a with | ⟨0, _⟩ => exact hp.symm | ⟨1, _⟩ => rfl))

/-! ## The mean as a product -/

/-- The word 0x461C4000 is the real 10000. -/
theorem ofBits_10000 : Ideal.ofBits .f32 0x461C4000#32 = ((10000 : ℝ) : EReal) := by
  simp [Ideal.ofBits, Ideal.ieee, -EReal.coe_mul]; norm_num

/-- The quotient by 10000 is the product with 1/10000, on every extended real. -/
theorem div_10000 (s : EReal) : Ideal.div s (Ideal.ofBits .f32 0x461C4000#32) = s * ((1 / 10000 : ℝ) : EReal) := by
  rw [ofBits_10000]
  exact Ideal.div_coe (by norm_num) s

end Cert.Spec

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.PayloadRead.lean ====
/-
  The body's arithmetic read at one entry, on the extended reals.

  The two stores of the first point are the projections of the two feature matrices by the weights. The stores of
  every point into the two [400, 128] output blocks are the leaky activation of: the inner product of a row of the
  point's 400 rows of the propagation matrix with a column of the carried [10000, 256] buffer (column f for the
  first output, column 128 + f for the second), plus the bias row at f; the slope is the slope row at f. The [1, 128]
  block of column sums gains, at f, the sum over the point's 400 rows of the first output's column f; the scaling
  at the last point multiplies it by the named constant.
-/
import proofs.«166296_g77644418777158_cont_9to1c4b_421_9_alg».proof.Proof.Gen.KernelIdeal.Skeleton
import proofs.«166296_g77644418777158_cont_9to1c4b_421_9_alg».proof.Proof.Spec
import proofs.«166296_g77644418777158_cont_9to1c4b_421_9_alg».proof.Proof.LibInnerProducts
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

namespace Cert.KernelValue

open Idealize.ShloMosaic Idealize.ShloMosaic.ValueIdx
open Cert.KernelIdeal Cert.KernelIdeal.Gen Cert.Spec
open scoped BigOperators

/-! ## The dimension numbers are the plain ones -/

theorem dot_proj_plain : dot_S10000x128_S128x128_S10000x128_1_0_0_1_n_n = DotDims.plain 10000 128 128 := rfl
theorem dot_prop_plain : dot_S400x10000_S10000x256_S400x256_1_0_0_1_n_n = DotDims.plain 400 10000 256 := rfl

/-! ## The first point's stores: the projected features -/

theorem pay2_eq (w : FVec Ideal S128x128 .f32) (x : FVec Ideal S10000x128 .f32) : k0_pay2 (F := Ideal) w x = proj x w := by
  funext j
  obtain ⟨k, f, rfl⟩ : ∃ (k : Fin 10000) (f : Fin 128), j = ix2 k f := ⟨j 0, j 1, eq_ix2 j⟩
  unfold k0_pay2
  refine (congrFun (shapeCast_self _ _) _).trans ?_
  exact InnerProducts.matmul_zero_apply _ dot_proj_plain none x w k f

theorem pay3_eq (w : FVec Ideal S128x128 .f32) (x : FVec Ideal S10000x128 .f32) : k0_pay3 (F := Ideal) w x = proj x w := by
  funext j
  obtain ⟨k, f, rfl⟩ : ∃ (k : Fin 10000) (f : Fin 128), j = ix2 k f := ⟨j 0, j 1, eq_ix2 j⟩
  unfold k0_pay3
  refine (congrFun (shapeCast_self _ _) _).trans ?_
  exact InnerProducts.matmul_zero_apply _ dot_proj_plain none x w k f

/-- The reset row of column sums is the zero word everywhere. -/
theorem pay4_apply (j : S1x128.Idx) : k0_pay4 (F := Ideal) j = zero := rfl

/-! ## The propagation product, the bias row and the slope row at an entry -/

/-- The product of the point's rows with the carried buffer, at row r and column g. -/
theorem pay5_apply (v3 : FVec Ideal S400x10000 .f32) (v4 : FVec Ideal S10000x256 .f32) (r : Fin 400) (g : Fin 256) :
    k0_pay5 (F := Ideal) v3 v4 (ix2 r g) = ∑ k : Fin 10000, v3 (ix2 r k) * v4 (ix2 k g) := by
  unfold k0_pay5
  exact InnerProducts.matmul_zero_apply _ dot_prop_plain none v3 v4 r g

/-- The bias row, broadcast over the 400 rows, reads its entry f. -/
theorem bias_apply (v6 : FVec Ideal S1x128 .f32) (r : Fin 400) (f : Fin 128) :
    broadcastTo S400x128 (k0_pay6 (F := Ideal) v6) broadcasts_S1x128_S400x128 (ix2 r f) = v6 (ix2 (0 : Fin 1) f) := by
  refine (broadcastTo_1b_ab_apply _ _ r f).trans ?_
  unfold k0_pay6
  exact congrFun (shapeCast_self v6 _) _

/-- The slope row, broadcast over the 400 rows, reads its entry f. -/
theorem slope_apply (v8 : FVec Ideal S1x128 .f32) (r : Fin 400) (f : Fin 128) :
    broadcastTo S400x128 (k0_pay7 (F := Ideal) v8) broadcasts_S1x128_S400x128 (ix2 r f) = v8 (ix2 (0 : Fin 1) f) := by
  refine (broadcastTo_1b_ab_apply _ _ r f).trans ?_
  unfold k0_pay7
  exact congrFun (shapeCast_self v8 _) _

/-! ## The two output blocks at an entry -/

/-- The first output block at (r, f): the activation of row r against column f of the carried buffer, plus bias. -/
theorem pay8_apply (v3 : FVec Ideal S400x10000 .f32) (v4 : FVec Ideal S10000x256 .f32) (v6 v8 : FVec Ideal S1x128 .f32)
    (r : Fin 400) (f : Fin 128) (g : Fin 256) (hg : g.val = 0 + f.val) :
    k0_pay8 (F := Ideal) v3 v4 v6 v8 (ix2 r f)
      = act (v8 (ix2 (0 : Fin 1) f)) ((∑ k : Fin 10000, v3 (ix2 r k) * v4 (ix2 k g)) + v6 (ix2 (0 : Fin 1) f)) := by
  have e10 : extractStridedSlice S400x128 ![0, 0] (k0_pay5 (F := Ideal) v3 v4) slices_S400x256_o0_0_S400x128 (ix2 r f)
      = ∑ k : Fin 10000, v3 (ix2 r k) * v4 (ix2 k g) :=
    (slice2_axis1_apply 0 _ _ r f g hg).trans (pay5_apply v3 v4 r g)
  unfold k0_pay8
  simp only [select_apply, cmpf_apply, addf_apply, mulf_apply, broadcast_apply, e10, bias_apply, slope_apply]
  rfl

/-- The second output block at (r, f): the same against column 128 + f. -/
theorem pay9_apply (v3 : FVec Ideal S400x10000 .f32) (v4 : FVec Ideal S10000x256 .f32) (v6 v8 : FVec Ideal S1x128 .f32)
    (r : Fin 400) (f : Fin 128) (g : Fin 256) (hg : g.val = 128 + f.val) :
    k0_pay9 (F := Ideal) v3 v4 v6 v8 (ix2 r f)
      = act (v8 (ix2 (0 : Fin 1) f)) ((∑ k : Fin 10000, v3 (ix2 r k) * v4 (ix2 k g)) + v6 (ix2 (0 : Fin 1) f)) := by
  have e13 : extractStridedSlice S400x128 ![0, 128] (k0_pay5 (F := Ideal) v3 v4) slices_S400x256_o0_128_S400x128 (ix2 r f)
      = ∑ k : Fin 10000, v3 (ix2 r k) * v4 (ix2 k g) :=
    (slice2_axis1_apply 128 _ _ r f g hg).trans (pay5_apply v3 v4 r g)
  unfold k0_pay9
  simp only [select_apply, cmpf_apply, addf_apply, mulf_apply, broadcast_apply, e13, bias_apply, slope_apply]
  rfl

/-! ## The running column sums at an entry -/

/-- Summing a [400, 128] block down its rows reads, at f, the sum over the 400 rows. -/
theorem rowsum_apply (x : FVec Ideal S400x128 .f32) (hacc : (0x00000000#32 : BitVec 32) = 0x00000000#32)
    (hφ : FKind.Formats .f32) (f : Fin 128) :
    multiReduction .add [0] S128 x 0x00000000#32 reduces_S400x128_S128 hφ hacc (ix1 f) = ∑ r : Fin 400, x (ix2 r f) := by
  refine (Ideal.multiReduction_add_single x 0x00000000#32 reduces_S400x128_S128 hφ hacc (ix1 f)).trans ?_
  refine Finset.sum_congr rfl fun r _ => congrArg x (funext fun a => Fin.ext ?_)
  match a with
  | ⟨0, _⟩ => rfl
  | ⟨1, _⟩ => rfl

/-- The block of column sums after a point, at f: what it held before plus the point's 400 rows of the first
    output's column f. -/
theorem pay10_apply (v3 : FVec Ideal S400x10000 .f32) (v4 : FVec Ideal S10000x256 .f32) (v6 v8 v28 : FVec Ideal S1x128 .f32)
    (u : Fin 1) (f : Fin 128) :
    k0_pay10 (F := Ideal) v3 v4 v6 v8 v28 (ix2 u f)
      = v28 (ix2 u f) + ∑ r : Fin 400, k0_pay8 (F := Ideal) v3 v4 v6 v8 (ix2 r f) := by
  unfold k0_pay10
  rw [addf_apply]
  refine congrArg₂ (· + ·) (congrFun (shapeCast_self v28 _) _) ?_
  refine (shapeCast_a_1a_apply _ _ u f).trans ?_
  exact rowsum_apply _ _ _ f

/-- The scaling at the last point: every entry times the named constant, which denotes 1/10000. -/
theorem pay1_apply (v37 : FVec Ideal S1x128 .f32) (j : S1x128.Idx) :
    k0_pay1 (F := Ideal) v37 j = v37 j * ((1 / 10000 : ℝ) : EReal) := by
  unfold k0_pay1
  rw [mulf_apply, broadcast_apply]
  refine congrArg₂ (· * ·) (congrFun (shapeCast_self v37 _) _) ?_
  exact IdealRules.named_const.ideal_named_scalar _ _ _ _ rfl

end Cert.KernelValue

end
-- ==== Proof.KernelIsSpec.lean ====
/-
  The kernel's per-point values are the layer of Spec.lean.

  On the extended reals: the carried buffer is the two projected feature matrices side by side; so the first
  output's block of point t, at (r, f), is the layer on the first feature matrix at node 400 t + r, feature f (the inner
  product runs over all 10000 columns of the propagation matrix's row and reads column f of the carried buffer, which
  is the first projection's), and the second output's block the layer on the second feature matrix (column 128 + f
  is the second projection's column f). The block of column sums after point n is zero plus the first output's column
  sum over the nodes 0 .. 400 (n + 1) - 1, because each point adds its own 400 nodes; after the last point, scaled by
  1/10000, it is the mean over all 10000 nodes, the quotient by 10000 being that product.
-/
import proofs.«166296_g77644418777158_cont_9to1c4b_421_9_alg».proof.Proof.PointValues
import proofs.«166296_g77644418777158_cont_9to1c4b_421_9_alg».proof.Proof.PayloadRead

set_option maxRecDepth 16384

noncomputable section

namespace Cert.KernelValue

open Idealize.ShloMosaic Idealize.ShloMosaic.TcCoe Idealize.SL.Sem Idealize.ShloMosaic.ValueIdx
open Cert.KernelIdeal Cert.KernelIdeal.Gen Cert.Spec
open scoped BigOperators

variable (m : (ℓ : Loc nD τ sig) → Buf (Elt Ideal) ℓ)

/-! ## The arguments on a core -/

abbrev feat0 (c : Dev nD) : FVec Ideal Sx .f32 := m ((c : Thread nD τ).loc main_arg0)
abbrev feat1 (c : Dev nD) : FVec Ideal Sx .f32 := m ((c : Thread nD τ).loc main_arg1)
abbrev adjM (c : Dev nD) : FVec Ideal Sadj .f32 := m ((c : Thread nD τ).loc main_arg2)
abbrev wts (c : Dev nD) : FVec Ideal Sw .f32 := m ((c : Thread nD τ).loc main_arg3)
abbrev biasV (c : Dev nD) : FVec Ideal Sb .f32 := m ((c : Thread nD τ).loc main_arg4)
abbrev slopeV (c : Dev nD) : FVec Ideal Sa .f32 := m ((c : Thread nD τ).loc main_arg5)

/-- The layer on the first feature matrix. -/
abbrev layer0 (c : Dev nD) : FVec Ideal Sx .f32 := hidden (feat0 m c) (wts m c) (adjM m c) (biasV m c) (slopeV m c)
/-- The layer on the second feature matrix. -/
abbrev layer1 (c : Dev nD) : FVec Ideal Sx .f32 := hidden (feat1 m c) (wts m c) (adjM m c) (biasV m c) (slopeV m c)

/-! ## The carried buffer -/

/-- The carried buffer is the two projections side by side. -/
theorem carried_ideal (c : Dev nD) :
    carried (F := Ideal) m c = stacked (proj (feat0 m c) (wts m c)) (proj (feat1 m c) (wts m c)) := by
  funext y
  unfold carried sideBySide
  rw [pay3_eq, pay2_eq]
  by_cases h : (y 1).val < 128
  · have hnot : y ∉ (Rect.unit ![0, 128] S10000x128.size inb_S10000x256_S10000x128_0_128 : Rect S10000x256).set := by
      rw [Rect.mem_set_unit]
      intro hh
      have h' : 128 ≤ (y 1).val := (hh 1).1
      omega
    rw [View.canon_cons_of_not_mem
      (⟨Rect.unit ![0, 128] S10000x128.size inb_S10000x256_S10000x128_0_128, proj (feat1 m c) (wts m c)⟩ :
        View.Piece (Elt Ideal) S10000x256 .f32)
      [(⟨Rect.unit ![0, 0] S10000x128.size inb_S10000x256_S10000x128_0_0, proj (feat0 m c) (wts m c)⟩ :
        View.Piece (Elt Ideal) S10000x256 .f32)] hnot]
    have hy : y = (Rect.unit ![0, 0] S10000x128.size inb_S10000x256_S10000x128_0_0 : Rect S10000x256).emb
        (ix2 (y 0) ⟨(y 1).val, h⟩ : Sx.Idx) := funext fun a => Fin.ext (by
      match a with
      | ⟨0, _⟩ => show (y 0).val = 0 + 1 * (y 0).val; omega
      | ⟨1, _⟩ => show (y 1).val = 0 + 1 * (y 1).val; omega)
    refine (congrArg (View.canon _) hy).trans ((View.canon_cons_emb _ _ _ _).trans ?_)
    unfold stacked
    rw [dif_pos h]
  · have hlt : (y 1).val < 256 := idx2_lt1 y
    have hy : y = (Rect.unit ![0, 128] S10000x128.size inb_S10000x256_S10000x128_0_128 : Rect S10000x256).emb
        (ix2 (y 0) ⟨(y 1).val - 128, by omega⟩ : Sx.Idx) := funext fun a => Fin.ext (by
      match a with
      | ⟨0, _⟩ => show (y 0).val = 0 + 1 * (y 0).val; omega
      | ⟨1, _⟩ => show (y 1).val = 128 + 1 * ((y 1).val - 128); omega)
    refine (congrArg (View.canon _) hy).trans ((View.canon_cons_emb _ _ _ _).trans ?_)
    unfold stacked
    rw [dif_neg h]

/-! ## The two outputs, entry by entry -/

/-- The first output's block of point t at (r, f) is the layer on the first feature matrix at node 400 t + r. -/
theorem first_entry (c : Dev nD) (t : Fin cfg0.N) (r : Fin 400) (f : Fin 128) (p : Fin 10000)
    (hp : p.val = 400 * t.val + r.val) :
    k0_pay8 (F := Ideal) (iblk m c 3 t) (carried m c) (iblk m c 4 t) (iblk m c 5 t) (ix2 r f) = layer0 m c (ix2 p f) := by
  have hf : f.val < 256 := by have := f.isLt; omega
  refine (pay8_apply (iblk m c 3 t) (carried m c) (iblk m c 4 t) (iblk m c 5 t) r f ⟨f.val, hf⟩ (Nat.zero_add _).symm).trans ?_
  show _ = hidden (feat0 m c) (wts m c) (adjM m c) (biasV m c) (slopeV m c) (ix2 p f)
  rw [hidden_apply, slope_block m c t (0 : Fin 1) f, bias_block m c t (0 : Fin 1) f]
  unfold pre
  refine congrArg (act _) (congrArg (· + _) (Finset.sum_congr rfl fun k _ => ?_))
  rw [adj_block m c t r k p hp, carried_ideal, stacked_left _ _ k f ⟨f.val, hf⟩ rfl]

/-- The second output's block of point t at (r, f) is the layer on the second feature matrix at node 400 t + r. -/
theorem second_entry (c : Dev nD) (t : Fin cfg0.N) (r : Fin 400) (f : Fin 128) (p : Fin 10000)
    (hp : p.val = 400 * t.val + r.val) :
    k0_pay9 (F := Ideal) (iblk m c 3 t) (carried m c) (iblk m c 4 t) (iblk m c 5 t) (ix2 r f) = layer1 m c (ix2 p f) := by
  have hf : 128 + f.val < 256 := by have := f.isLt; omega
  refine (pay9_apply (iblk m c 3 t) (carried m c) (iblk m c 4 t) (iblk m c 5 t) r f ⟨128 + f.val, hf⟩ rfl).trans ?_
  show _ = hidden (feat1 m c) (wts m c) (adjM m c) (biasV m c) (slopeV m c) (ix2 p f)
  rw [hidden_apply, slope_block m c t (0 : Fin 1) f, bias_block m c t (0 : Fin 1) f]
  unfold pre
  refine congrArg (act _) (congrArg (· + _) (Finset.sum_congr rfl fun k _ => ?_))
  rw [adj_block m c t r k p hp, carried_ideal, stacked_right _ _ k f ⟨128 + f.val, hf⟩ rfl]

/-! ## The running column sums -/

/-- After point n the block of column sums holds, at f, zero plus the first output's column f over the first
    400 (n + 1) nodes. -/
theorem sums_ideal (c : Dev nD) : ∀ (n : ℕ) (hn : n < cfg0.N) (u : Fin 1) (f : Fin 128),
    sums (F := Ideal) m c n hn (ix2 u f) = running (layer0 m c) f (n + 1)
  | 0, hn, u, f => by
    rw [sums]
    refine (pay10_apply _ _ _ _ _ u f).trans ?_
    rw [running_succ, running_zero, add_zero, pay4_apply]
    refine congrArg (zero + ·) (Finset.sum_congr rfl fun r _ => ?_)
    have hr : 400 * 0 + r.val < 10000 := by have := r.isLt; omega
    rw [colFn_block _ f 0 (by decide) r ⟨400 * 0 + r.val, hr⟩ rfl]
    exact first_entry m c ⟨0, hn⟩ r f _ rfl
  | n + 1, hn, u, f => by
    have hN : n + 1 < 25 := lt_of_lt_of_eq hn (show cfg0.N = 25 from N_0)
    rw [sums]
    refine (pay10_apply _ _ _ _ _ u f).trans ?_
    rw [sums_ideal c n _ u f, running_succ _ f (n + 1)]
    refine congrArg (running _ f (n + 1) + ·) (Finset.sum_congr rfl fun r _ => ?_)
    have hr : 400 * (n + 1) + r.val < 10000 := by have := r.isLt; omega
    rw [colFn_block _ f (n + 1) hN r ⟨400 * (n + 1) + r.val, hr⟩ rfl]
    exact first_entry m c ⟨n + 1, hn⟩ r f _ rfl

/-- After the last point the scaled block is the mean over the nodes. -/
theorem mean_entry (c : Dev nD) (hn : 23 + 1 < cfg0.N) (u : Fin 1) (f : Fin 128) :
    k0_pay1 (F := Ideal) (sums m c (23 + 1) hn) (ix2 u f) = pooled (layer0 m c) (ix2 u f) := by
  rw [pay1_apply, sums_ideal m c (23 + 1) hn u f]
  show running (layer0 m c) f 25 * _ = Ideal.div (colSum (layer0 m c) f) _
  rw [running_all, div_10000]

end Cert.KernelValue

end
-- ==== Proof.Arrays.lean ====
/-
  The three result arrays after the kernel's run.

  Each of the 25 points writes its [400, 128] block of the first and of the second result at rows 400 t .. 400 t + 399:
  what it writes is the layer's entries at those rows, and row p is written by point p / 400, so each array ends
  holding the layer on its feature matrix. The third result, one [1, 128] row, is written back once, after the last
  point: the mean over the nodes of the first result.
-/
import proofs.«166296_g77644418777158_cont_9to1c4b_421_9_alg».proof.Proof.KernelIsSpec
import proofs.«166296_g77644418777158_cont_9to1c4b_421_9_alg».proof.Proof.Gen.KernelIdeal.Value

set_option maxRecDepth 16384

noncomputable section

namespace Cert.KernelValue

open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (m : (ℓ : Loc nD τ sig) → Buf (Elt Ideal) ℓ) (ρ : Dev nD → PrngReg)

/-! ## Where the result blocks sit, decided over the 25 points -/

theorem index6 : ∀ t : Fin cfg0.N, win0_6.index t 0 = t.val ∧ win0_6.index t 1 = 0 :=
  (by decide +kernel : ∀ t : Fin grid0.N, win0_6.index t 0 = t.val ∧ win0_6.index t 1 = 0)
theorem index7 : ∀ t : Fin cfg0.N, win0_7.index t 0 = t.val ∧ win0_7.index t 1 = 0 :=
  (by decide +kernel : ∀ t : Fin grid0.N, win0_7.index t 0 = t.val ∧ win0_7.index t 1 = 0)
theorem index8 : ∀ t : Fin cfg0.N, win0_8.index t 0 = 0 ∧ win0_8.index t 1 = 0 :=
  (by decide +kernel : ∀ t : Fin grid0.N, win0_8.index t 0 = 0 ∧ win0_8.index t 1 = 0)

/-! ## The first result -/

/-- What point t writes back to this result is its 400 rows of the layer. -/
theorem flushed_6 (c : Dev nD) (t : Fin cfg0.N) :
    (dats m 0 c).flushed 6 t = ((cfg0.win 6).blk t).view.read (Elt Ideal) (layer0 m c) := by
  rw [Value.flushed6, first_block]
  have hN : t.val < 25 := lt_of_lt_of_eq t.isLt (show cfg0.N = 25 from N_0)
  refine funext fun (j : S400x128.Idx) => ?_
  obtain ⟨r, f, rfl⟩ : ∃ (r : Fin 400) (f : Fin 128), j = ix2 r f := ⟨j 0, j 1, eq_ix2 j⟩
  have hr : 400 * t.val + r.val < 10000 := by have := r.isLt; omega
  show k0_pay8 (F := Ideal) (iblk m c 3 t) (carried m c) (iblk m c 4 t) (iblk m c 5 t) (ix2 r f)
    = layer0 m c (((cfg0.win 6).blk t).view.emb (ix2 r f))
  have he : (((cfg0.win 6).blk t).view.emb (ix2 r f) : S10000x128.Idx) = ix2 (⟨400 * t.val + r.val, hr⟩ : Fin 10000) f :=
    funext fun a => Fin.ext (by
      match a with
      | ⟨0, _⟩ =>
        show win0_6.index t 0 * 400 + 1 * r.val = 400 * t.val + r.val
        rw [(index6 t).1]; omega
      | ⟨1, _⟩ =>
        show win0_6.index t 1 * 128 + 1 * f.val = f.val
        rw [(index6 t).2]; omega)
  rw [he]
  exact first_entry m c t r f _ rfl

/-- An index of the array is in point t's block iff each coordinate is in the block's range on its axis. -/
theorem mem_block_6 (t : Fin cfg0.N) (i : S10000x128.Idx) :
    i ∈ ((cfg0.win 6).blk t).view.set ↔ ∀ a : Fin 2, win0_6.index t a * S400x128.size a ≤ (i a).val
      ∧ (i a).val < win0_6.index t a * S400x128.size a + S400x128.size a := by
  show i ∈ ((View.whole main_v3_0).slice (win0_6.rect t)).set ↔ _
  rw [View.set_slice_whole, Rect.mem_set_unit]
  exact Iff.rfl

/-- Row p of the array is written back by point p / 400. -/
theorem cover_6 (i : S10000x128.Idx) :
    ∃ t : Fin cfg0.N, (cfg0.win 6).flush t = true ∧ i ∈ ((cfg0.win 6).blk t).view.set := by
  have hi0 : (i 0).val < 10000 := idx2_lt0 i
  have hi1 : (i 1).val < 128 := idx2_lt1 i
  have hlt : (i 0).val / 400 < cfg0.N := by rw [show cfg0.N = 25 from N_0]; omega
  refine ⟨⟨(i 0).val / 400, hlt⟩, flush0_6 _, ?_⟩
  rw [mem_block_6]
  intro a
  match a with
  | ⟨0, _⟩ =>
    show win0_6.index ⟨(i 0).val / 400, hlt⟩ 0 * 400 ≤ (i 0).val
      ∧ (i 0).val < win0_6.index ⟨(i 0).val / 400, hlt⟩ 0 * 400 + 400
    rw [(index6 ⟨(i 0).val / 400, hlt⟩).1]
    show (i 0).val / 400 * 400 ≤ (i 0).val ∧ (i 0).val < (i 0).val / 400 * 400 + 400
    omega
  | ⟨1, _⟩ =>
    show win0_6.index ⟨(i 0).val / 400, hlt⟩ 1 * 128 ≤ (i 1).val
      ∧ (i 1).val < win0_6.index ⟨(i 0).val / 400, hlt⟩ 1 * 128 + 128
    rw [(index6 ⟨(i 0).val / 400, hlt⟩).2]
    omega

/-- So the array ends holding the layer. -/
theorem final_6 (c : Dev nD) : (dats m 0 c).arrAt 6 cfg0.N = layer0 m c :=
  (dats m 0 c).arrAt_eq_of_cover 6 (layer0 m c) (fun t _ => flushed_6 m c t) cover_6

/-! ## The second result -/

/-- What point t writes back to this result is its 400 rows of the layer. -/
theorem flushed_7 (c : Dev nD) (t : Fin cfg0.N) :
    (dats m 0 c).flushed 7 t = ((cfg0.win 7).blk t).view.read (Elt Ideal) (layer1 m c) := by
  rw [Value.flushed7, second_block]
  have hN : t.val < 25 := lt_of_lt_of_eq t.isLt (show cfg0.N = 25 from N_0)
  refine funext fun (j : S400x128.Idx) => ?_
  obtain ⟨r, f, rfl⟩ : ∃ (r : Fin 400) (f : Fin 128), j = ix2 r f := ⟨j 0, j 1, eq_ix2 j⟩
  have hr : 400 * t.val + r.val < 10000 := by have := r.isLt; omega
  show k0_pay9 (F := Ideal) (iblk m c 3 t) (carried m c) (iblk m c 4 t) (iblk m c 5 t) (ix2 r f)
    = layer1 m c (((cfg0.win 7).blk t).view.emb (ix2 r f))
  have he : (((cfg0.win 7).blk t).view.emb (ix2 r f) : S10000x128.Idx) = ix2 (⟨400 * t.val + r.val, hr⟩ : Fin 10000) f :=
    funext fun a => Fin.ext (by
      match a with
      | ⟨0, _⟩ =>
        show win0_7.index t 0 * 400 + 1 * r.val = 400 * t.val + r.val
        rw [(index7 t).1]; omega
      | ⟨1, _⟩ =>
        show win0_7.index t 1 * 128 + 1 * f.val = f.val
        rw [(index7 t).2]; omega)
  rw [he]
  exact second_entry m c t r f _ rfl

/-- An index of the array is in point t's block iff each coordinate is in the block's range on its axis. -/
theorem mem_block_7 (t : Fin cfg0.N) (i : S10000x128.Idx) :
    i ∈ ((cfg0.win 7).blk t).view.set ↔ ∀ a : Fin 2, win0_7.index t a * S400x128.size a ≤ (i a).val
      ∧ (i a).val < win0_7.index t a * S400x128.size a + S400x128.size a := by
  show i ∈ ((View.whole main_v3_1).slice (win0_7.rect t)).set ↔ _
  rw [View.set_slice_whole, Rect.mem_set_unit]
  exact Iff.rfl

/-- Row p of the array is written back by point p / 400. -/
theorem cover_7 (i : S10000x128.Idx) :
    ∃ t : Fin cfg0.N, (cfg0.win 7).flush t = true ∧ i ∈ ((cfg0.win 7).blk t).view.set := by
  have hi0 : (i 0).val < 10000 := idx2_lt0 i
  have hi1 : (i 1).val < 128 := idx2_lt1 i
  have hlt : (i 0).val / 400 < cfg0.N := by rw [show cfg0.N = 25 from N_0]; omega
  refine ⟨⟨(i 0).val / 400, hlt⟩, flush0_7 _, ?_⟩
  rw [mem_block_7]
  intro a
  match a with
  | ⟨0, _⟩ =>
    show win0_7.index ⟨(i 0).val / 400, hlt⟩ 0 * 400 ≤ (i 0).val
      ∧ (i 0).val < win0_7.index ⟨(i 0).val / 400, hlt⟩ 0 * 400 + 400
    rw [(index7 ⟨(i 0).val / 400, hlt⟩).1]
    show (i 0).val / 400 * 400 ≤ (i 0).val ∧ (i 0).val < (i 0).val / 400 * 400 + 400
    omega
  | ⟨1, _⟩ =>
    show win0_7.index ⟨(i 0).val / 400, hlt⟩ 1 * 128 ≤ (i 1).val
      ∧ (i 1).val < win0_7.index ⟨(i 0).val / 400, hlt⟩ 1 * 128 + 128
    rw [(index7 ⟨(i 0).val / 400, hlt⟩).2]
    omega

/-- So the array ends holding the layer. -/
theorem final_7 (c : Dev nD) : (dats m 0 c).arrAt 7 cfg0.N = layer1 m c :=
  (dats m 0 c).arrAt_eq_of_cover 7 (layer1 m c) (fun t _ => flushed_7 m c t) cover_7

/-! ## The third result: the mean, written back after the last point -/

/-- The one write-back, after point 24, writes the mean over the nodes. -/
theorem flushed_8 (c : Dev nD) (t : Fin cfg0.N) (hf : (cfg0.win 8).flush t = true) :
    (dats m 0 c).flushed 8 t = ((cfg0.win 8).blk t).view.read (Elt Ideal) (pooled (layer0 m c)) := by
  have hN : t.val < 25 := lt_of_lt_of_eq t.isLt (show cfg0.N = 25 from N_0)
  have h24 : t.val % 25 = 24 := (flush0_8 t).mp hf
  obtain ⟨tv, ht⟩ := t
  obtain rfl : tv = 23 + 1 := by dsimp only at h24 hN; omega
  rw [Value.flushed8]
  dsimp only
  rw [last_block m c 23 ht (by decide)]
  refine funext fun (j : S1x128.Idx) => ?_
  obtain ⟨u, f, rfl⟩ : ∃ (u : Fin 1) (f : Fin 128), j = ix2 u f := ⟨j 0, j 1, eq_ix2 j⟩
  show k0_pay1 (F := Ideal) (sums m c (23 + 1) ht) (ix2 u f)
    = pooled (layer0 m c) (((cfg0.win 8).blk ⟨23 + 1, ht⟩).view.emb (ix2 u f))
  have he : (((cfg0.win 8).blk ⟨23 + 1, ht⟩).view.emb (ix2 u f) : S1x128.Idx) = ix2 u f :=
    funext fun a => Fin.ext (by
      match a with
      | ⟨0, _⟩ =>
        show win0_8.index ⟨23 + 1, ht⟩ 0 * 1 + 1 * u.val = u.val
        rw [(index8 ⟨23 + 1, ht⟩).1]; omega
      | ⟨1, _⟩ =>
        show win0_8.index ⟨23 + 1, ht⟩ 1 * 128 + 1 * f.val = f.val
        rw [(index8 ⟨23 + 1, ht⟩).2]; omega)
  rw [he]
  exact mean_entry m c ht u f

/-- An index of the row is in point t's block iff each coordinate is in the block's range on its axis. -/
theorem mem_block_8 (t : Fin cfg0.N) (i : S1x128.Idx) :
    i ∈ ((cfg0.win 8).blk t).view.set ↔ ∀ a : Fin 2, win0_8.index t a * S1x128.size a ≤ (i a).val
      ∧ (i a).val < win0_8.index t a * S1x128.size a + S1x128.size a := by
  show i ∈ ((View.whole main_v3_2).slice (win0_8.rect t)).set ↔ _
  rw [View.set_slice_whole, Rect.mem_set_unit]
  exact Iff.rfl

/-- The last point's block is the whole row. -/
theorem cover_8 (i : S1x128.Idx) :
    ∃ t : Fin cfg0.N, (cfg0.win 8).flush t = true ∧ i ∈ ((cfg0.win 8).blk t).view.set := by
  have hi0 : (i 0).val < 1 := idx2_lt0 i
  have hi1 : (i 1).val < 128 := idx2_lt1 i
  have hlt : 24 < cfg0.N := by rw [show cfg0.N = 25 from N_0]; decide
  refine ⟨⟨24, hlt⟩, (flush0_8 _).mpr rfl, ?_⟩
  rw [mem_block_8]
  intro a
  match a with
  | ⟨0, _⟩ =>
    show win0_8.index ⟨24, hlt⟩ 0 * 1 ≤ (i 0).val ∧ (i 0).val < win0_8.index ⟨24, hlt⟩ 0 * 1 + 1
    rw [(index8 ⟨24, hlt⟩).1]; omega
  | ⟨1, _⟩ =>
    show win0_8.index ⟨24, hlt⟩ 1 * 128 ≤ (i 1).val ∧ (i 1).val < win0_8.index ⟨24, hlt⟩ 1 * 128 + 128
    rw [(index8 ⟨24, hlt⟩).2]; omega

/-- So the row ends holding the mean over the nodes. -/
theorem final_8 (c : Dev nD) : (dats m 0 c).arrAt 8 cfg0.N = pooled (layer0 m c) :=
  (dats m 0 c).arrAt_eq_of_cover 8 (pooled (layer0 m c)) (fun t hf => flushed_8 m c t hf) cover_8

/-! ## The run, read -/

/-- Every weakly fair execution of the kernel's program ends with the three results at the layer on the first feature
    matrix, the layer on the second, and the mean over the nodes of the first; the arguments unchanged. -/
theorem run : θ_run defs (onTc (τ := τ) (main (F := Ideal))) ⟨m, fun _ => 0, ρ⟩ fun r => ∀ c : Dev nD,
      r.2.mem ((c : Thread nD τ).loc main_v3_0) = layer0 m c
      ∧ r.2.mem ((c : Thread nD τ).loc main_v3_1) = layer1 m c
      ∧ r.2.mem ((c : Thread nD τ).loc main_v3_2) = pooled (layer0 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final_6 m c), (h c).2.1.trans (final_7 m c),
      (h c).2.2.1.trans (final_8 m c), (h c).2.2.2⟩)
    (Value.run_blocks m ρ)

end Cert.KernelValue

end
-- ==== Proof.RefIsSpec.lean ====
/-
  The reference program computes the layer of Spec.lean.

  Read one operation at a time, the reference's first result at (p, f) is: the inner product of row p of adj with
  column f of (x0 times w), plus b f, passed through the comparison with zero and the selection between itself and
  a times itself. That is hidden x0 w adj b a at (p, f), once the index each operation reads its operand at is written
  by coordinates: a row-by-column product reads (p, k) and (k, f); the bias, broadcast from [128] through [1, 128] to
  [10000, 128], reads f; the slope, broadcast from [1] through [1, 1], reads its one entry. The second result is the
  same with x1 in place of x0. The third is the column sums of the first from zero, each divided by 10000.0,
  laid out as one row: pooled of the first result.
-/
import proofs.«166296_g77644418777158_cont_9to1c4b_421_9_alg».proof.Proof.Gen.ReferenceIdeal.Read
import proofs.«166296_g77644418777158_cont_9to1c4b_421_9_alg».proof.Proof.Spec

noncomputable section

namespace Cert.RefValue

open Cert.ReferenceIdeal Cert.ReferenceIdeal.Read Cert.Spec
open Idealize.ShloMosaic Idealize.ShloMosaic.ValueIdx
open scoped BigOperators

/-! ## The indices the operations read, by coordinates -/

theorem lidx1 (p : Fin 10000) (f : Fin 128) (k : Fin 10000) : lidx_main_v1 (ix2 p f) k = ix2 p k :=
  funext fun a => Fin.ext (by match a with | ⟨0, _⟩ => rfl | ⟨1, _⟩ => rfl)
theorem ridx1 (p : Fin 10000) (f : Fin 128) (k : Fin 10000) : ridx_main_v1 (ix2 p f) k = ix2 k f :=
  funext fun a => Fin.ext (by match a with | ⟨0, _⟩ => rfl | ⟨1, _⟩ => rfl)
theorem lidx0 (k : Fin 10000) (f : Fin 128) (d : Fin 128) : lidx_main_v0 (ix2 k f) d = ix2 k d :=
  funext fun a => Fin.ext (by match a with | ⟨0, _⟩ => rfl | ⟨1, _⟩ => rfl)
theorem ridx0 (k : Fin 10000) (f : Fin 128) (d : Fin 128) : ridx_main_v0 (ix2 k f) d = ix2 d f :=
  funext fun a => Fin.ext (by match a with | ⟨0, _⟩ => rfl | ⟨1, _⟩ => rfl)
theorem bidx (p : Fin 10000) (f : Fin 128) : idx_main_v2 (idx_main_v3 (ix2 p f)) = ix1 f :=
  funext fun a => Fin.ext (by match a with | ⟨0, _⟩ => rfl)
theorem aidx (p : Fin 10000) (f : Fin 128) : idx_main_v7 (idx_main_v8 (ix2 p f)) = ix1 0 :=
  funext fun a => Fin.ext (by match a with | ⟨0, _⟩ => rfl)

theorem lidx15 (p : Fin 10000) (f : Fin 128) (k : Fin 10000) : lidx_main_v15 (ix2 p f) k = ix2 p k :=
  funext fun a => Fin.ext (by match a with | ⟨0, _⟩ => rfl | ⟨1, _⟩ => rfl)
theorem ridx15 (p : Fin 10000) (f : Fin 128) (k : Fin 10000) : ridx_main_v15 (ix2 p f) k = ix2 k f :=
  funext fun a => Fin.ext (by match a with | ⟨0, _⟩ => rfl | ⟨1, _⟩ => rfl)
theorem lidx14 (k : Fin 10000) (f : Fin 128) (d : Fin 128) : lidx_main_v14 (ix2 k f) d = ix2 k d :=
  funext fun a => Fin.ext (by match a with | ⟨0, _⟩ => rfl | ⟨1, _⟩ => rfl)
theorem ridx14 (k : Fin 10000) (f : Fin 128) (d : Fin 128) : ridx_main_v14 (ix2 k f) d = ix2 d f :=
  funext fun a => Fin.ext (by match a with | ⟨0, _⟩ => rfl | ⟨1, _⟩ => rfl)
theorem bidx' (p : Fin 10000) (f : Fin 128) : idx_main_v16 (idx_main_v17 (ix2 p f)) = ix1 f :=
  funext fun a => Fin.ext (by match a with | ⟨0, _⟩ => rfl)
theorem aidx' (p : Fin 10000) (f : Fin 128) : idx_main_v21 (idx_main_v22 (ix2 p f)) = ix1 0 :=
  funext fun a => Fin.ext (by match a with | ⟨0, _⟩ => rfl)

theorem sidx (j : Sc.Idx) (k : Fin 10000) : idx_main_v11 (idx_main_v25 j) k = ix2 k (j 1) :=
  funext fun a => Fin.ext (by match a with | ⟨0, _⟩ => rfl | ⟨1, _⟩ => rfl)

/-! ## The projected features -/

theorem v0_eq (x0 : FVec Ideal Sx .f32) (w : FVec Ideal Sw .f32) : val_main_v0 (F := Ideal) x0 w = proj x0 w := by
  funext i
  obtain ⟨k, f, rfl⟩ : ∃ (k : Fin 10000) (f : Fin 128), i = ix2 k f := ⟨i 0, i 1, eq_ix2 i⟩
  rw [val_main_v0_apply, proj_apply]
  simp only [lidx0, ridx0]

theorem v14_eq (x1 : FVec Ideal Sx .f32) (w : FVec Ideal Sw .f32) : val_main_v14 (F := Ideal) x1 w = proj x1 w := by
  funext i
  obtain ⟨k, f, rfl⟩ : ∃ (k : Fin 10000) (f : Fin 128), i = ix2 k f := ⟨i 0, i 1, eq_ix2 i⟩
  rw [val_main_v14_apply, proj_apply]
  simp only [lidx14, ridx14]

/-! ## The two layer outputs -/

/-- The reference's first result is the layer on x0. -/
theorem v10_eq (x0 : FVec Ideal Sx .f32) (adj : FVec Ideal Sadj .f32) (w : FVec Ideal Sw .f32) (b : FVec Ideal Sb .f32)
    (a : FVec Ideal Sa .f32) : val_main_v10 (F := Ideal) x0 adj w b a = hidden x0 w adj b a := by
  funext i
  obtain ⟨p, f, rfl⟩ : ∃ (p : Fin 10000) (f : Fin 128), i = ix2 p f := ⟨i 0, i 1, eq_ix2 i⟩
  rw [val_main_v10_apply, val_main_v9_apply, val_main_v6_apply, val_main_v4_apply, val_main_v1_apply, val_main_v3_apply,
    val_main_v2_apply, val_main_v5_apply, val_main_cst_apply, val_main_v8_apply, val_main_v7_apply, v0_eq, hidden_apply]
  simp only [lidx1, ridx1, bidx, aidx]
  rfl

/-- The reference's second result is the layer on x1. -/
theorem v24_eq (x1 : FVec Ideal Sx .f32) (adj : FVec Ideal Sadj .f32) (w : FVec Ideal Sw .f32) (b : FVec Ideal Sb .f32)
    (a : FVec Ideal Sa .f32) : val_main_v24 (F := Ideal) x1 adj w b a = hidden x1 w adj b a := by
  funext i
  obtain ⟨p, f, rfl⟩ : ∃ (p : Fin 10000) (f : Fin 128), i = ix2 p f := ⟨i 0, i 1, eq_ix2 i⟩
  rw [val_main_v24_apply, val_main_v23_apply, val_main_v20_apply, val_main_v18_apply, val_main_v15_apply, val_main_v17_apply,
    val_main_v16_apply, val_main_v19_apply, val_main_cst_2_apply, val_main_v22_apply, val_main_v21_apply, v14_eq, hidden_apply]
  simp only [lidx15, ridx15, bidx', aidx']
  rfl

/-! ## The mean over the nodes -/

/-- The reference's third result is the mean over the nodes of its first. -/
theorem v25_eq (x0 : FVec Ideal Sx .f32) (adj : FVec Ideal Sadj .f32) (w : FVec Ideal Sw .f32) (b : FVec Ideal Sb .f32)
    (a : FVec Ideal Sa .f32) : val_main_v25 (F := Ideal) x0 adj w b a = pooled (hidden x0 w adj b a) := by
  funext j
  rw [val_main_v25_apply, val_main_v13_apply, val_main_v11_apply, val_main_v12_apply, val_main_cst_1_apply, val_main_cst_0_apply,
    v10_eq]
  simp only [sidx]
  rfl

end Cert.RefValue

end
-- ==== Proof.lean ====
/-
  A graph layer with shared weights, applied to two feature matrices, and the mean over the nodes of the first output.

  With x0, x1 of shape [10000, 128], weights w of shape [128, 128], a dense propagation matrix adj of shape
  [10000, 10000], a bias b of length 128 and one slope a, both programs compute on the extended reals

      h0 = act (adj (x0 w) + b),    h1 = act (adj (x1 w) + b),    c = (sum over the nodes of h0) / 10000,

  where act z is z for z >= 0 and a z otherwise. The reference does so in one piece. The kernel first stores the two
  projections x0 w and x1 w side by side in one [10000, 256] buffer, then visits 25 blocks of 400 rows of adj: each
  visit multiplies its 400 rows with the whole buffer, so the first 128 columns of the product are rows of adj (x0 w)
  and the last 128 are rows of adj (x1 w); it adds the bias, applies act, writes the two blocks of h0 and h1, and adds the
  block's column sums of h0 to a running row that starts at zero; after the last block the row is multiplied by the
  constant the certificate names 1/10000.

  The two sides agree entry by entry: the inner products are the same sums (no regrouping: both multiply adj with
  an already projected matrix); the 25 block sums added one after another from zero make the sum over all 10000
  rows, by associativity of addition alone; and the product with 1/10000 is the quotient by 10000 on every extended
  real. No input needs to be finite for any of this.

  The modules: Spec states the layer and the two facts about sums; RefIsSpec reads the reference as the layer; Pieces
  and BlockReads say what one grid point stores and what it loads; PointValues gives the buffers after each point, by
  induction over the points; PayloadRead and KernelIsSpec read those values on the extended reals; Arrays assembles the
  three result arrays. The kernel's run and the reference's run come from the generated frame and run modules.
-/
import proofs.«166296_g77644418777158_cont_9to1c4b_421_9_alg».proof.Defs
import proofs.«166296_g77644418777158_cont_9to1c4b_421_9_alg».proof.Proof.Gen.Kernel
import proofs.«166296_g77644418777158_cont_9to1c4b_421_9_alg».proof.Proof.Gen.Kernel.Skeleton
import proofs.«166296_g77644418777158_cont_9to1c4b_421_9_alg».proof.Proof.Gen.Kernel.Launch
import proofs.«166296_g77644418777158_cont_9to1c4b_421_9_alg».proof.Proof.Gen.Kernel.Points
import proofs.«166296_g77644418777158_cont_9to1c4b_421_9_alg».proof.Proof.Gen.Kernel.Frame
import proofs.«166296_g77644418777158_cont_9to1c4b_421_9_alg».proof.Proof.Gen.KernelIdeal
import proofs.«166296_g77644418777158_cont_9to1c4b_421_9_alg».proof.Proof.Gen.KernelIdeal.Skeleton
import proofs.«166296_g77644418777158_cont_9to1c4b_421_9_alg».proof.Proof.Gen.KernelIdeal.Launch
import proofs.«166296_g77644418777158_cont_9to1c4b_421_9_alg».proof.Proof.Gen.KernelIdeal.Points
import proofs.«166296_g77644418777158_cont_9to1c4b_421_9_alg».proof.Proof.Gen.KernelIdeal.Frame
import proofs.«166296_g77644418777158_cont_9to1c4b_421_9_alg».proof.Proof.Gen.ReferenceIdeal
import proofs.«166296_g77644418777158_cont_9to1c4b_421_9_alg».proof.Proof.Gen.KernelIdeal.Value
import proofs.«166296_g77644418777158_cont_9to1c4b_421_9_alg».proof.Proof.Gen.ReferenceIdeal.Run
import proofs.«166296_g77644418777158_cont_9to1c4b_421_9_alg».proof.Proof.Gen.ReferenceIdeal.Read
import proofs.«166296_g77644418777158_cont_9to1c4b_421_9_alg».proof.Proof.Gen.Pre_finite_inputs
import proofs.«166296_g77644418777158_cont_9to1c4b_421_9_alg».proof.Proof.Arrays
import proofs.«166296_g77644418777158_cont_9to1c4b_421_9_alg».proof.Proof.RefIsSpec
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments alone: its run, with the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The one rewrite of the idealization: the constant named inv_10000 denotes 1/10000. -/
theorem preserves : Cert.preserves_Kernel_KernelIdeal :=
  IdealRules.named_const.statement Cert.KernelIdeal.κ "inv_10000" .f32 0x38D1B717#32 ((1 / 10000 : ℝ) : EReal) rfl

/-- On the extended reals the kernel's three result arrays and the reference's are the layer on the first feature
    matrix, the layer on the second, and the mean over the nodes of the first, of arguments that agree. -/
theorem algebraic : Cert.algebraic_KernelIdeal_ReferenceIdeal := by
  intro m ρ m' ρ' _ hagree
  refine ⟨fun c => Cert.KernelValue.layer0 m c, fun c => Cert.KernelValue.layer1 m c,
    fun c => Cert.Spec.pooled (Cert.KernelValue.layer0 m c), Cert.KernelValue.run m ρ, ?_⟩
  refine (θ_run Cert.ReferenceIdeal.defs _ _).mono (fun _ h c => ?_) (Cert.ReferenceIdeal.Value.run (F := Ideal) m' ρ')
  obtain ⟨h10, h24, h25, hargs⟩ := h c
  obtain ⟨e0, e1, e2, e3, e4, e5⟩ := hagree c
  refine ⟨h10.trans ?_, h24.trans ?_, h25.trans ?_, hargs⟩
  · rw [Cert.ReferenceIdeal.Read.val_main_v10_eq, Cert.RefValue.v10_eq, e0, e2, e3, e4, e5]
  · rw [Cert.ReferenceIdeal.Read.val_main_v24_eq, Cert.RefValue.v24_eq, e1, e2, e3, e4, e5]
  · rw [Cert.ReferenceIdeal.Read.val_main_v25_eq, Cert.RefValue.v25_eq, e0, e2, e3, e4, e5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
